-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x64 : Shape := ⟨3, ![128, 4096, 64]⟩
abbrev S20x60 : Shape := ⟨2, ![20, 60]⟩
abbrev S20 : Shape := ⟨1, ![20]⟩
abbrev S256x20 : Shape := ⟨2, ![256, 20]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S_ : Shape := ⟨0, ![]⟩

class Facts : Prop where
  bcast_S_S128x4096x64 : S_.BroadcastsInDim S128x4096x64 (![] : Fin 0 → Fin S128x4096x64.rank)
  reducesTo_S128x4096x64_S_d0_1_2 : S128x4096x64.ReducesTo [0, 1, 2] S_
  h_S_ : 0 < S_.numel
  bcast_S_S20x60 : S_.BroadcastsInDim S20x60 (![] : Fin 0 → Fin S20x60.rank)
  reducesTo_S20x60_S_d0_1 : S20x60.ReducesTo [0, 1] S_
  bcast_S_S20 : S_.BroadcastsInDim S20 (![] : Fin 0 → Fin S20.rank)
  reducesTo_S20_S_d0 : S20.ReducesTo [0] S_
  bcast_S_S256x20 : S_.BroadcastsInDim S256x20 (![] : Fin 0 → Fin S256x20.rank)
  reducesTo_S256x20_S_d0_1 : S256x20.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S64x128 .f32) (main_arg8 : FVec F S64 .f32) (main_arg9 : FVec F S3x64 .f32) (main_arg10 : FVec F S3 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S3x64 .f32 := Host.absf main_arg9
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S256 .f32) (main_arg5 : FVec F S128x256 .f32) (main_arg6 : FVec F S128 .f32) (main_arg7 : FVec F S64x128 .f32) (main_arg8 : FVec F S64 .f32) (main_arg9 : FVec F S3x64 .f32) (main_arg10 : FVec F S3 .f32) (main_v13 : IVec S_ 1) (main_v16 : IVec S256x20 1) : IVec S_ 1 :=
  let main_c_5 : IVec S_ 1 := constantI S_ 1 1#1
  let main_v17 : IVec S_ 1 := (fun x v => Host.reduce IntOp.andi x v reducesTo_S256x20_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S128x4096x64 .f32) (main_arg1 : FVec F S20x60 .f32) (main_arg2 : FVec F S20 .f32) (main_arg3 : FVec F S256x20 .f32) (main_arg4 : FVec F S256 .f32) (main_arg5 : FVec F S128x256 .f32) (main_arg6 : FVec F S128 .f32) (main_arg7 : FVec F S64x128 .f32) (main_arg8 : FVec F S64 .f32) (main_arg9 : FVec F S3x64 .f32) (main_arg10 : FVec F S3 .f32) : IVec S_ 1 :=
  let main_v0 : FVec F S128x4096x64 .f32 := Host.absf main_arg0
  let main_cst : FVec F S_ .f32 := constant S_ .f32 0x7F800000#32
  let main_v1 : FVec F S128x4096x64 .f32 := broadcastInDim S128x4096x64 ![] bcast_S_S128x4096x64 main_cst
  let main_v2 : IVec S128x4096x64 1 := cmpf .olt main_v0 main_v1
  let main_c : IVec S_ 1 := constantI S_ 1 1#1
  let main_v3 : IVec S_ 1 := (fun x v => Host.reduce IntOp.andi x v reducesTo_S128x4096x64_S_d0_1_2 h_S_) main_v2 main_c
  let main_v4 : FVec F S20x60 .f32 := Host.absf main_arg1
  let main_cst_0 : FVec F S_ .f32 := constant S_ .f32 0x7F800000#32
  let main_v5 : FVec F S20x60 .f32 := broadcastInDim S20x60 ![] bcast_S_S20x60 main_cst_0
  let main_v6 : IVec S20x60 1 := cmpf .olt main_v4 main_v5
  let main_c_1 : IVec S_ 1 := constantI S_ 1 1#1
  let main_v7 : IVec S_ 1 := (fun x v => Host.reduce IntOp.andi x v reducesTo_S20x60_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S256x20 .f32 := Host.absf main_arg3
  let main_cst_4 : FVec F S_ .f32 := constant S_ .f32 0x7F800000#32
  let main_v15 : FVec F S256x20 .f32 := broadcastInDim S256x20 ![] bcast_S_S256x20 main_cst_4
  let main_v16 : IVec S256x20 1 := cmpf .olt main_v14 main_v15
  fn_part1 (F := F) main_arg4 main_arg5 main_arg6 main_arg7 main_arg8 main_arg9 main_arg10 main_v13 main_v16
-- ==== Kernel.lean ====
abbrev S128x4096x64 : Shape := ⟨3, ![128, 4096, 64]⟩
abbrev S20x60 : Shape := ⟨2, ![20, 60]⟩
abbrev S20 : Shape := ⟨1, ![20]⟩
abbrev S256x20 : Shape := ⟨2, ![256, 20]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S60x20 : Shape := ⟨2, ![60, 20]⟩
abbrev S20x256 : Shape := ⟨2, ![20, 256]⟩
abbrev S256x128 : Shape := ⟨2, ![256, 128]⟩
abbrev S128x64 : Shape := ⟨2, ![128, 64]⟩
abbrev S64x3 : Shape := ⟨2, ![64, 3]⟩
abbrev S128x3 : Shape := ⟨2, ![128, 3]⟩
abbrev S64x512x64 : Shape := ⟨3, ![64, 512, 64]⟩
abbrev S64x64 : Shape := ⟨2, ![64, 64]⟩
abbrev S64x60 : Shape := ⟨2, ![64, 60]⟩
abbrev S64x20 : Shape := ⟨2, ![64, 20]⟩
abbrev S1x20 : Shape := ⟨2, ![1, 20]⟩
abbrev S64x256 : Shape := ⟨2, ![64, 256]⟩
abbrev S1x256 : Shape := ⟨2, ![1, 256]⟩
abbrev S1x128 : Shape := ⟨2, ![1, 128]⟩
abbrev S1x64 : Shape := ⟨2, ![1, 64]⟩
abbrev S1x3 : Shape := ⟨2, ![1, 3]⟩

abbrev nBuf : Space → Nat
  | .hbm => 17
  | .vmem => 15
  | .smem => 0
  | _ => 0

abbrev bufTy : (tb : Table) → Fin (tcTables nBuf tb) → BufTy
  | .hbm, ⟨0, _⟩ => ⟨S128x4096x64, .f32⟩
  | .hbm, ⟨1, _⟩ => ⟨S20x60, .f32⟩
  | .hbm, ⟨2, _⟩ => ⟨S20, .f32⟩
  | .hbm, ⟨3, _⟩ => ⟨S256x20, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S3x64, .f32⟩
  | .hbm, ⟨10, _⟩ => ⟨S3, .f32⟩
  | .hbm, ⟨11, _⟩ => ⟨S60x20, .f32⟩
  | .hbm, ⟨12, _⟩ => ⟨S20x256, .f32⟩
  | .hbm, ⟨13, _⟩ => ⟨S256x128, .f32⟩
  | .hbm, ⟨14, _⟩ => ⟨S128x64, .f32⟩
  | .hbm, ⟨15, _⟩ => ⟨S64x3, .f32⟩
  | .hbm, ⟨16, _⟩ => ⟨S128x3, .f32⟩
  | .local _ .vmem, ⟨0, _⟩ => ⟨S64x512x64, .f32⟩
  | .local _ .vmem, ⟨1, _⟩ => ⟨S64x512x64, .f32⟩
  | .local _ .vmem, ⟨2, _⟩ => ⟨S60x20, .f32⟩
  | .local _ .vmem, ⟨3, _⟩ => ⟨S20, .f32⟩
  | .local _ .vmem, ⟨4, _⟩ => ⟨S20x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S64x3, .f32⟩
  | .local _ .vmem, ⟨11, _⟩ => ⟨S3, .f32⟩
  | .local _ .vmem, ⟨12, _⟩ => ⟨S64x3, .f32⟩
  | .local _ .vmem, ⟨13, _⟩ => ⟨S64x3, .f32⟩
  | .local _ .vmem, ⟨14, _⟩ => ⟨S64x64, .f32⟩
  | _, _ => ⟨S128x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S60x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S20x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  transposes_S20x60_S60x20_1_0 : S20x60.Transposes [1, 0] S60x20
  transposes_S256x20_S20x256_1_0 : S256x20.Transposes [1, 0] S20x256
  transposes_S128x256_S256x128_1_0 : S128x256.Transposes [1, 0] S256x128
  transposes_S64x128_S128x64_1_0 : S64x128.Transposes [1, 0] S128x64
  transposes_S3x64_S64x3_1_0 : S3x64.Transposes [1, 0] S64x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x512x64_S64x512x64_0_0_0 : ∀ a, (![0, 0, 0] : Fin 3 → Nat) a + S64x512x64.size a ≤ S64x512x64.size a
  h_S64x512x64 : 0 < S64x512x64.numel
  reduces_S64x512x64_S64x64 : S64x512x64.Reduces [1] S64x64
  slices_S64x64_o0_0_S64x60 : S64x64.Slices ![0, 0] S64x60
  bitsLt_bf16_f32 : FTy.bits .bf16 < FTy.bits .f32
  inb_S60x20_S60x20_0_0 : ∀ a, (![0, 0] : Fin 2 → Nat) a + S60x20.size a ≤ S60x20.size a
  h_S60x20 : 0 < S60x20.numel
  shapeCasts_S60x20_S60x20 : S60x20.ShapeCasts S60x20
  inb_S20_S20_0 : ∀ a, (![0] : Fin 1 → Nat) a + S20.size a ≤ S20.size a
  h_S20 : 0 < S20.numel
  shapeCasts_S20_S1x20 : S20.ShapeCasts S1x20
  broadcasts_S1x20_S64x20 : S1x20.Broadcasts S64x20
  inb_S20x256_S20x256_0_0 : ∀ a, (![0, 0] : Fin 2 → Nat) a + S20x256.size a ≤ S20x256.size a
  h_S20x256 : 0 < S20x256.numel
  shapeCasts_S20x256_S20x256 : S20x256.ShapeCasts S20x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S3_S3_0 : ∀ a, (![0] : Fin 1 → Nat) a + S3.size a ≤ S3.size a
  h_S3 : 0 < S3.numel
  shapeCasts_S3_S1x3 : S3.ShapeCasts S1x3
  broadcasts_S1x3_S64x3 : S1x3.Broadcasts S64x3
  dot_S64x60_S60x20_S64x20_1_0_0_1_n_n_wf : DotDims.WF S64x60 S60x20 S64x20 [1] [0] [0] [1] [] []
  dot_S64x20_S20x256_S64x256_1_0_0_1_n_n_wf : DotDims.WF S64x20 S20x256 S64x256 [1] [0] [0] [1] [] []
  dot_S64x256_S256x128_S64x128_1_0_0_1_n_n_wf : DotDims.WF S64x256 S256x128 S64x128 [1] [0] [0] [1] [] []
  dot_S64x128_S128x64_S64x64_1_0_0_1_n_n_wf : DotDims.WF S64x128 S128x64 S64x64 [1] [0] [0] [1] [] []
  dot_S64x64_S64x3_S64x3_1_0_0_1_n_n_wf : DotDims.WF S64x64 S64x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x64.size a ≤ S128x4096x64.size a
  hwx0_0 : ∀ i : grid0.Coords, EltTy.bits .f32 = 32 ∨ (Rect.block (s := S128x4096x64) S64x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S60x20.size a ≤ S60x20.size a
  hwx0_1 : ∀ i : grid0.Coords, EltTy.bits .f32 = 32 ∨ (Rect.block (s := S60x20) S60x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20.size a ≤ S20.size a
  hwx0_2 : ∀ i : grid0.Coords, EltTy.bits .f32 = 32 ∨ (Rect.block (s := S20) S20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x256.size a ≤ S20x256.size a
  hwx0_3 : ∀ i : grid0.Coords, EltTy.bits .f32 = 32 ∨ (Rect.block (s := S20x256) S20x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x3.size a ≤ S64x3.size a
  hwx0_9 : ∀ i : grid0.Coords, EltTy.bits .f32 = 32 ∨ (Rect.block (s := S64x3) S64x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3.size a ≤ S3.size a
  hwx0_10 : ∀ i : grid0.Coords, EltTy.bits .f32 = 32 ∨ (Rect.block (s := S3) S3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x3.size a ≤ S128x3.size a
  hwx0_11 : ∀ i : grid0.Coords, EltTy.bits .f32 = 32 ∨ (Rect.block (s := S128x3) S64x3.size (cc0_transform_11 i) (hinb0_11 i)).WholeWords (EltTy.packing .f32)

variable [Facts₀]

def dot_S64x60_S60x20_S64x20_1_0_0_1_n_n : DotDims S64x60 S60x20 S64x20 where
  lhsContracting := [1]
  rhsContracting := [0]
  lhsNonContracting := [0]
  rhsNonContracting := [1]
  lhsBatch := []
  rhsBatch := []
  wf := dot_S64x60_S60x20_S64x20_1_0_0_1_n_n_wf
def dot_S64x20_S20x256_S64x256_1_0_0_1_n_n : DotDims S64x20 S20x256 S64x256 where
  lhsContracting := [1]
  rhsContracting := [0]
  lhsNonContracting := [0]
  rhsNonContracting := [1]
  lhsBatch := []
  rhsBatch := []
  wf := dot_S64x20_S20x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x3_S64x3_1_0_0_1_n_n : DotDims S64x64 S64x3 S64x3 where
  lhsContracting := [1]
  rhsContracting := [0]
  lhsNonContracting := [0]
  rhsNonContracting := [1]
  lhsBatch := []
  rhsBatch := []
  wf := dot_S64x64_S64x3_S64x3_1_0_0_1_n_n_wf

abbrev win0_0 : Pipeline.Window sig grid0 :=
  Pipeline.Window.ofSpec (Memref.whole main_arg0) S64x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S60x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S64x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S128x4096x64 : Shape := ⟨3, ![128, 4096, 64]⟩
abbrev S20x60 : Shape := ⟨2, ![20, 60]⟩
abbrev S20 : Shape := ⟨1, ![20]⟩
abbrev S256x20 : Shape := ⟨2, ![256, 20]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S3x64 : Shape := ⟨2, ![3, 64]⟩
abbrev S3 : Shape := ⟨1, ![3]⟩
abbrev S128x4096x60 : Shape := ⟨3, ![128, 4096, 60]⟩
abbrev S_ : Shape := ⟨0, ![]⟩
abbrev S128x60 : Shape := ⟨2, ![128, 60]⟩
abbrev S60x20 : Shape := ⟨2, ![60, 20]⟩
abbrev S128x20 : Shape := ⟨2, ![128, 20]⟩
abbrev S1x20 : Shape := ⟨2, ![1, 20]⟩
abbrev S20x256 : Shape := ⟨2, ![20, 256]⟩
abbrev S1x256 : Shape := ⟨2, ![1, 256]⟩
abbrev S256x128 : Shape := ⟨2, ![256, 128]⟩
abbrev S128x128 : Shape := ⟨2, ![128, 128]⟩
abbrev S1x128 : Shape := ⟨2, ![1, 128]⟩
abbrev S128x64 : Shape := ⟨2, ![128, 64]⟩
abbrev S1x64 : Shape := ⟨2, ![1, 64]⟩
abbrev S64x3 : Shape := ⟨2, ![64, 3]⟩
abbrev S128x3 : Shape := ⟨2, ![128, 3]⟩
abbrev S1x3 : Shape := ⟨2, ![1, 3]⟩

abbrev nBuf : Space → Nat
  | .hbm => 51
  | .vmem => 0
  | .smem => 0
  | _ => 0

abbrev bufTy : (tb : Table) → Fin (tcTables nBuf tb) → BufTy
  | .hbm, ⟨0, _⟩ => ⟨S128x4096x64, .f32⟩
  | .hbm, ⟨1, _⟩ => ⟨S20x60, .f32⟩
  | .hbm, ⟨2, _⟩ => ⟨S20, .f32⟩
  | .hbm, ⟨3, _⟩ => ⟨S256x20, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S3x64, .f32⟩
  | .hbm, ⟨10, _⟩ => ⟨S3, .f32⟩
  | .hbm, ⟨11, _⟩ => ⟨S128x4096x60, .f32⟩
  | .hbm, ⟨12, _⟩ => ⟨S_, .f32⟩
  | .hbm, ⟨13, _⟩ => ⟨S128x60, .f32⟩
  | .hbm, ⟨14, _⟩ => ⟨S_, .f32⟩
  | .hbm, ⟨15, _⟩ => ⟨S128x60, .f32⟩
  | .hbm, ⟨16, _⟩ => ⟨S128x60, .f32⟩
  | .hbm, ⟨17, _⟩ => ⟨S60x20, .f32⟩
  | .hbm, ⟨18, _⟩ => ⟨S128x20, .f32⟩
  | .hbm, ⟨19, _⟩ => ⟨S1x20, .f32⟩
  | .hbm, ⟨20, _⟩ => ⟨S128x20, .f32⟩
  | .hbm, ⟨21, _⟩ => ⟨S128x20, .f32⟩
  | .hbm, ⟨22, _⟩ => ⟨S20x256, .f32⟩
  | .hbm, ⟨23, _⟩ => ⟨S128x256, .f32⟩
  | .hbm, ⟨24, _⟩ => ⟨S1x256, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S256x128, .f32⟩
  | .hbm, ⟨31, _⟩ => ⟨S128x128, .f32⟩
  | .hbm, ⟨32, _⟩ => ⟨S1x128, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x64, .f32⟩
  | .hbm, ⟨39, _⟩ => ⟨S128x64, .f32⟩
  | .hbm, ⟨40, _⟩ => ⟨S1x64, .f32⟩
  | .hbm, ⟨41, _⟩ => ⟨S128x64, .f32⟩
  | .hbm, ⟨42, _⟩ => ⟨S128x64, .f32⟩
  | .hbm, ⟨43, _⟩ => ⟨S_, .f32⟩
  | .hbm, ⟨44, _⟩ => ⟨S128x64, .f32⟩
  | .hbm, ⟨45, _⟩ => ⟨S128x64, .f32⟩
  | .hbm, ⟨46, _⟩ => ⟨S64x3, .f32⟩
  | .hbm, ⟨47, _⟩ => ⟨S128x3, .f32⟩
  | .hbm, ⟨48, _⟩ => ⟨S1x3, .f32⟩
  | .hbm, ⟨49, _⟩ => ⟨S128x3, .f32⟩
  | .hbm, ⟨50, _⟩ => ⟨S128x3, .f32⟩
  | _, _ => ⟨S128x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  slices_S128x4096x64_S128x4096x60_0_0_0 : S128x4096x64.Slices ![0, 0, 0] S128x4096x60
  reducesTo_S128x4096x60_S128x60_d1 : S128x4096x60.ReducesTo [1] S128x60
  h_S_ : 0 < S_.numel
  bcast_S_S128x60 : S_.BroadcastsInDim S128x60 (![] : Fin 0 → Fin S128x60.rank)
  transposes_S20x60_S60x20_1_0 : S20x60.Transposes [1, 0] S60x20
  bcast_S20_S1x20_1 : S20.BroadcastsInDim S1x20 (![1] : Fin 1 → Fin S1x20.rank)
  bcast_S1x20_S128x20_0_1 : S1x20.BroadcastsInDim S128x20 (![0, 1] : Fin 2 → Fin S128x20.rank)
  transposes_S256x20_S20x256_1_0 : S256x20.Transposes [1, 0] S20x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  transposes_S128x256_S256x128_1_0 : S128x256.Transposes [1, 0] S256x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S64x128_S128x64_1_0 : S64x128.Transposes [1, 0] S128x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  transposes_S3x64_S64x3_1_0 : S3x64.Transposes [1, 0] S64x3
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  dot_S128x60_S60x20_S128x20_1_0_0_1_n_n_wf : DotDims.WF S128x60 S60x20 S128x20 [1] [0] [0] [1] [] []
  dot_S128x20_S20x256_S128x256_1_0_0_1_n_n_wf : DotDims.WF S128x20 S20x256 S128x256 [1] [0] [0] [1] [] []
  dot_S128x256_S256x128_S128x128_1_0_0_1_n_n_wf : DotDims.WF S128x256 S256x128 S128x128 [1] [0] [0] [1] [] []
  dot_S128x128_S128x64_S128x64_1_0_0_1_n_n_wf : DotDims.WF S128x128 S128x64 S128x64 [1] [0] [0] [1] [] []
  dot_S128x64_S64x3_S128x3_1_0_0_1_n_n_wf : DotDims.WF S128x64 S64x3 S128x3 [1] [0] [0] [1] [] []

variable [Facts₀]

def dot_S128x60_S60x20_S128x20_1_0_0_1_n_n : DotDims S128x60 S60x20 S128x20 where
  lhsContracting := [1]
  rhsContracting := [0]
  lhsNonContracting := [0]
  rhsNonContracting := [1]
  lhsBatch := []
  rhsBatch := []
  wf := dot_S128x60_S60x20_S128x20_1_0_0_1_n_n_wf
def dot_S128x20_S20x256_S128x256_1_0_0_1_n_n : DotDims S128x20 S20x256 S128x256 where
  lhsContracting := [1]
  rhsContracting := [0]
  lhsNonContracting := [0]
  rhsNonContracting := [1]
  lhsBatch := []
  rhsBatch := []
  wf := dot_S128x20_S20x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x3_S128x3_1_0_0_1_n_n : DotDims S128x64 S64x3 S128x3 where
  lhsContracting := [1]
  rhsContracting := [0]
  lhsNonContracting := [0]
  rhsNonContracting := [1]
  lhsBatch := []
  rhsBatch := []
  wf := dot_S128x64_S64x3_S128x3_1_0_0_1_n_n_wf

class Facts : Prop extends Facts₀ where

variable [Facts]
-- ==== Proof.Stored.lean ====
/-
  What each control case of the kernel body leaves behind, as values of the body's four pure terms.

  The body runs under two conditions on the sequence coordinate s of the grid point (b, s): "s = 0" and "s = 7".
  * s = 0 (the first sequence tile of a batch tile): the 64 x 64 accumulator is overwritten with zeros, read back,
    and the column sums of the 64 x 512 x 64 tile of x are added: it ends at  zeros + tile sums.
  * 0 < s < 7: the accumulator ends at  (what the previous point left) + tile sums.
  * s = 7 (the last tile): the accumulator is updated the same way, then read back once more and pushed through
    the scaling by 1/4096 and the five affine layers; the 64 x 3 output block is stored whole.
  Each statement below says that the pieces a case's run found, read back, are these terms of the input blocks.
-/
import proofs.«129909_j75376676045074_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stored

open Cert.KernelIdeal Cert.KernelIdeal.Gen

variable {F : FTy → Type} [FloatOps F]

theorem off1 : (![0] : Fin 1 → Nat) = fun _ => 0 := funext fun a => by fin_cases a; rfl
theorem off2 : (![0, 0] : Fin 2 → Nat) = fun _ => 0 := funext fun a => by fin_cases a <;> rfl
theorem off3 : (![0, 0, 0] : Fin 3 → Nat) = fun _ => 0 := funext fun a => by fin_cases a <;> rfl

/-- First sequence tile: the accumulator ends at the zero block plus the tile's column sums. -/
theorem acc_first (c : Dev nD) (i : grid0.Coords) (a2 : Memref sig .tc .vmem S64x512x64 .f32) (h2 : a2.IsWhole) (a3 : Memref sig .tc .vmem S60x20 .f32) (h3 : a3.IsWhole) (a4 : Memref sig .tc .vmem S20 .f32) (h4 : a4.IsWhole) (a5 : Memref sig .tc .vmem S20x256 .f32) (h5 : a5.IsWhole) (a6 : Memref sig .tc .vmem S256 .f32) (h6 : a6.IsWhole) (a7 : Memref sig .tc .vmem S256x128 .f32) (h7 : a7.IsWhole) (a8 : Memref sig .tc .vmem S128 .f32) (h8 : a8.IsWhole) (a9 : Memref sig .tc .vmem S128x64 .f32) (h9 : a9.IsWhole) (a10 : Memref sig .tc .vmem S64 .f32) (h10 : a10.IsWhole) (a11 : Memref sig .tc .vmem S64x3 .f32) (h11 : a11.IsWhole) (a12 : Memref sig .tc .vmem S3 .f32) (h12 : a12.IsWhole) (a13 : Memref sig .tc .vmem S64x3 .f32) (h13 : a13.IsWhole) (a14 : Memref sig .tc .vmem S64x64 .f32) (h14 : a14.IsWhole) (hc0 : cond0_0 i) (hc1 : ¬cond0_1 i)
    (x0 : Vec F S64x512x64 .f32) (x1 : Vec F S60x20 .f32) (x2 : Vec F S20 .f32) (x3 : Vec F S20x256 .f32) (x4 : Vec F S256 .f32) (x5 : Vec F S256x128 .f32) (x6 : Vec F S128 .f32) (x7 : Vec F S128x64 .f32) (x8 : Vec F S64 .f32) (x9 : Vec F S64x3 .f32) (x10 : Vec F S3 .f32) :
    sout0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay2 (k0_pay1 (F := F)) x0 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S64x64) off2, View.readCov_unit_zero (S := S64x64) _ off2]
  simp only [View.readAt_eq_ld, h2.read_unread, View.ld_unit_zero (S := S64x512x64) off3]

/-- A middle sequence tile: the accumulator ends at what it held plus the tile's column sums. -/
theorem acc_middle (c : Dev nD) (i : grid0.Coords) (a2 : Memref sig .tc .vmem S64x512x64 .f32) (h2 : a2.IsWhole) (a3 : Memref sig .tc .vmem S60x20 .f32) (h3 : a3.IsWhole) (a4 : Memref sig .tc .vmem S20 .f32) (h4 : a4.IsWhole) (a5 : Memref sig .tc .vmem S20x256 .f32) (h5 : a5.IsWhole) (a6 : Memref sig .tc .vmem S256 .f32) (h6 : a6.IsWhole) (a7 : Memref sig .tc .vmem S256x128 .f32) (h7 : a7.IsWhole) (a8 : Memref sig .tc .vmem S128 .f32) (h8 : a8.IsWhole) (a9 : Memref sig .tc .vmem S128x64 .f32) (h9 : a9.IsWhole) (a10 : Memref sig .tc .vmem S64 .f32) (h10 : a10.IsWhole) (a11 : Memref sig .tc .vmem S64x3 .f32) (h11 : a11.IsWhole) (a12 : Memref sig .tc .vmem S3 .f32) (h12 : a12.IsWhole) (a13 : Memref sig .tc .vmem S64x3 .f32) (h13 : a13.IsWhole) (a14 : Memref sig .tc .vmem S64x64 .f32) (h14 : a14.IsWhole) (hc0 : ¬cond0_0 i) (hc1 : ¬cond0_1 i)
    (x0 : Vec F S64x512x64 .f32) (x1 : Vec F S60x20 .f32) (x2 : Vec F S20 .f32) (x3 : Vec F S20x256 .f32) (x4 : Vec F S256 .f32) (x5 : Vec F S256x128 .f32) (x6 : Vec F S128 .f32) (x7 : Vec F S128x64 .f32) (x8 : Vec F S64 .f32) (x9 : Vec F S64x3 .f32) (x10 : Vec F S3 .f32) (xs0 : Vec F S64x64 .f32) :
    sout0_B_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs0 = k0_pay2 xs0 x0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs0)]
  unfold kernelRun0_B
  dsimp only
  rw [View.canon_unit_zero off2]
  simp only [View.readAt_eq_ld, h14.read_unread, h2.read_unread, View.ld_unit_zero (S := S64x64) off2,
    View.ld_unit_zero (S := S64x512x64) off3]

/-- The last sequence tile: the accumulator is updated as at a middle tile. -/
theorem acc_last (c : Dev nD) (i : grid0.Coords) (a2 : Memref sig .tc .vmem S64x512x64 .f32) (h2 : a2.IsWhole) (a3 : Memref sig .tc .vmem S60x20 .f32) (h3 : a3.IsWhole) (a4 : Memref sig .tc .vmem S20 .f32) (h4 : a4.IsWhole) (a5 : Memref sig .tc .vmem S20x256 .f32) (h5 : a5.IsWhole) (a6 : Memref sig .tc .vmem S256 .f32) (h6 : a6.IsWhole) (a7 : Memref sig .tc .vmem S256x128 .f32) (h7 : a7.IsWhole) (a8 : Memref sig .tc .vmem S128 .f32) (h8 : a8.IsWhole) (a9 : Memref sig .tc .vmem S128x64 .f32) (h9 : a9.IsWhole) (a10 : Memref sig .tc .vmem S64 .f32) (h10 : a10.IsWhole) (a11 : Memref sig .tc .vmem S64x3 .f32) (h11 : a11.IsWhole) (a12 : Memref sig .tc .vmem S3 .f32) (h12 : a12.IsWhole) (a13 : Memref sig .tc .vmem S64x3 .f32) (h13 : a13.IsWhole) (a14 : Memref sig .tc .vmem S64x64 .f32) (h14 : a14.IsWhole) (hc0 : ¬cond0_0 i) (hc1 : cond0_1 i)
    (x0 : Vec F S64x512x64 .f32) (x1 : Vec F S60x20 .f32) (x2 : Vec F S20 .f32) (x3 : Vec F S20x256 .f32) (x4 : Vec F S256 .f32) (x5 : Vec F S256x128 .f32) (x6 : Vec F S128 .f32) (x7 : Vec F S128x64 .f32) (x8 : Vec F S64 .f32) (x9 : Vec F S64x3 .f32) (x10 : Vec F S3 .f32) (xs0 : Vec F S64x64 .f32) :
    sout0_C_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs0 = k0_pay2 xs0 x0 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 hc0 hc1 x0 x1 x2 x3 x4 x5 x6 x7 x8 x9 x10 xs0)]
  unfold kernelRun0_C
  dsimp only
  sl_unfold_words
  rw [View.canon_unit_zero off2]
  simp only [View.readAt_eq_ld, h14.read_unread, h2.read_unread, View.ld_unit_zero (S := S64x64) off2,
    View.ld_unit_zero (S := S64x512x64) off3]

/-- The last sequence tile: the output block is the five layers applied to the UPDATED accumulator
    (the body reads the accumulator back after storing it) and the resident weight and bias blocks. -/
theorem out_last (c : Dev nD) (i : grid0.Coords) (a2 : Memref sig .tc .vmem S64x512x64 .f32) (h2 : a2.IsWhole) (a3 : Memref sig .tc .vmem S60x20 .f32) (h3 : a3.IsWhole) (a4 : Memref sig .tc .vmem S20 .f32) (h4 : a4.IsWhole) (a5 : Memref sig .tc .vmem S20x256 .f32) (h5 : a5.IsWhole) (a6 : Memref sig .tc .vmem S256 .f32) (h6 : a6.IsWhole) (a7 : Memref sig .tc .vmem S256x128 .f32) (h7 : a7.IsWhole) (a8 : Memref sig .tc .vmem S128 .f32) (h8 : a8.IsWhole) (a9 : Memref sig .tc .vmem S128x64 .f32) (h9 : a9.IsWhole) (a10 : Memref sig .tc .vmem S64 .f32) (h10 : a10.IsWhole) (a11 : Memref sig .tc .vmem S64x3 .f32) (h11 : a11.IsWhole) (a12 : Memref sig .tc .vmem S3 .f32) (h12 : a12.IsWhole) (a13 : Memref sig .tc .vmem S64x3 .f32) (h13 : a13.IsWhole) (a14 : Memref sig .tc .vmem S64x64 .f32) (h14 : a14.IsWhole) (hc0 : ¬cond0_0 i) (hc1 : cond0_1 i)
    (x0 : Vec F S64x512x64 .f32) (x1 : Vec F S60x20 .f32) (x2 : Vec F S20 .f32) (x3 : Vec F S20x256 .f32) (x4 : Vec F S256 .f32) (x5 : Vec F S256x128 .f32) (x6 : Vec F S128 .f32) (x7 : Vec F S128x64 .f32) (x8 : Vec F S64 .f32) (x9 : Vec F S64x3 .f32) (x10 : Vec F S3 .f32) (xs0 : Vec F S64x64 .f32) :
    out0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xs0
      = k0_pay3 (k0_pay4 (k0_pay2 xs0 x0) x1 x2 x3 x4 x5 x6 x7) x8 x9 x10 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xs0)]
  unfold kernelRun0_C
  dsimp only
  sl_unfold_words
  rw [View.canon_unit_zero off2, View.readCov_unit_zero (S := S64x64) _ off2]
  simp only [View.readAt_eq_ld, h14.read_unread, h2.read_unread, h3.read_unread, h4.read_unread, h5.read_unread,
    h6.read_unread, h7.read_unread, h8.read_unread, h9.read_unread, h10.read_unread, h11.read_unread, h12.read_unread,
    View.ld_unit_zero (S := S64x64) off2, View.ld_unit_zero (S := S64x512x64) off3,
    View.ld_unit_zero (S := S60x20) off2, View.ld_unit_zero (S := S20) off1, View.ld_unit_zero (S := S20x256) off2,
    View.ld_unit_zero (S := S256) off1, View.ld_unit_zero (S := S256x128) off2, View.ld_unit_zero (S := S128) off1,
    View.ld_unit_zero (S := S128x64) off2, View.ld_unit_zero (S := S64) off1, View.ld_unit_zero (S := S64x3) off2,
    View.ld_unit_zero (S := S3) off1]

end Cert.KernelIdeal.Stored

end
-- ==== Proof.Carried.lean ====
/-
  What the 64 x 64 accumulator holds after each grid point.

  The grid has 16 points t = 8 b + s (batch tile b in {0, 1}, sequence tile s in 0..7), visited in order. Write
  T(t) for the column sums of the 64 x 512 x 64 tile of x that point t loads (a sum over its 512 sequence rows).
  At s = 0 the accumulator is reset to  zeros + T(t);  at every later s of the same batch tile it becomes
  (previous contents) + T(t).  So after point t it holds  0 + (T(8b) + T(8b+1) + ... + T(t)),  the fold of the
  run that began at the last reset: this is only associativity of the running sum.
-/
import proofs.«129909_j75376676045074_2_alg».proof.Proof.Gen.KernelIdeal.Value
import proofs.«129909_j75376676045074_2_alg».proof.Proof.Stored
import Idealize.ShloMosaic.PureOps.Ideal.Laws
import Idealize.ShloMosaic.Lib.Pipeline.Value

noncomputable section

namespace Cert.KernelIdeal.Carried

open Idealize.ShloMosaic Idealize.ShloMosaic.TcCoe Idealize.SL.Sem
open Cert.KernelIdeal Cert.KernelIdeal.Gen

variable (m : (ℓ : Loc nD τ sig) → Buf (Elt Ideal) ℓ)

/-- The column sums of one loaded tile: for each (row, column), the sum over the tile's 512 sequence positions. -/
def tileSums (v : Vec Ideal S64x512x64 .f32) : FVec Ideal S64x64 .f32 :=
  multiReduction .add [1] S64x64 v 0x00000000#32 Facts₀.reduces_S64x512x64_S64x64 (.inl rfl) rfl

/-- One accumulation step at an entry: what was there plus the tile's column sum. -/
theorem step_apply (acc : Vec Ideal S64x64 .f32) (v : Vec Ideal S64x512x64 .f32) (i : S64x64.Idx) :
    k0_pay2 acc v i = (acc i : EReal) + tileSums v i := by
  unfold k0_pay2 tileSums
  rw [shapeCast_self]
  rfl

/-- The block the reset stores is zero at every entry. -/
theorem reset_apply (i : S64x64.Idx) : (k0_pay1 (F := Ideal) i : EReal) = 0 := by
  unfold k0_pay1
  rw [shapeCast_self]
  exact Ideal.ofBits_zero_f32

/-- Point `n`'s addend: the column sums of the tile it loads (zero past the grid, where it is never used). -/
def addend (c : Dev nD) (n : ℕ) (i : S64x64.Idx) : EReal :=
  if h : n < cfg0.N then tileSums (iblk m c 0 ⟨n, h⟩) i else 0

/-- THE ACCUMULATOR AFTER POINT `t`: zero plus the addends of the points from the last reset, 8 (t / 8), up to t. -/
theorem acc_after (c : Dev nD) (t : Fin cfg0.N) (i : S64x64.Idx) :
    ((outsAt0 m c t.val t.isLt).2 i : EReal)
      = 0 + ∑ s ∈ Finset.range (t.val % 8 + 1), addend m c (8 * (t.val / 8) + s) i := by
  have hN : cfg0.N = 16 := N_0
  rw [Value.soutsAt0_0_eq m c t]
  refine Pipeline.accAt_add_apply (ι := S64x64.Idx) (β := EReal) _ _ (fun _ => 0) (addend m c) (8 * (t.val / 8)) 7 ?_ ?_
    (t.val % 8) (by omega) _ i
  · intro h j
    have h0 : 8 * (t.val / 8) % 8 = 0 := by omega
    have h1 : ¬8 * (t.val / 8) % 8 = 7 := by omega
    unfold Value.scAt0_0
    rw [dif_pos h0, dif_neg h1, Stored.acc_first, step_apply, reset_apply]
    unfold addend
    rw [dif_pos h]
  · intro n h acc j hb he
    have h0 : ¬n % 8 = 0 := by omega
    unfold Value.scAt0_0
    rw [dif_neg h0]
    by_cases h1 : n % 8 = 7
    · rw [dif_pos h1, Stored.acc_last, step_apply]
      unfold addend
      rw [dif_pos h]
    · rw [dif_neg h1, Stored.acc_middle, step_apply]
      unfold addend
      rw [dif_pos h]

end Cert.KernelIdeal.Carried

end
-- ==== Proof.LibDense.lean ====
/-
  A dense (affine) layer on the extended reals, and how a kernel's matrix product plus bias row reads at an index.
  General in the three extents: M rows, K input features, N output features.

  * `dense W b h j = (sum over k of h k * W k j) + b j`: one affine layer applied to one row `h`, the weights indexed
    (input feature, output feature).
  * `matmul_zero_ix2`: a matrix product of an [M, K] by a [K, N] operand into the zero accumulator, at (p, q), is the
    inner product of row p with column q. Stated under the facts of the dimension record (one contracted axis of
    extent K, axis 1 of the left operand against axis 0 of the right, the free axes in place), each of which is
    `rfl` or a two-line unfolding at a literal record.
  * `layer_ix2`: the layer as a kernel body spells it — operands narrowed to bf16 (the identity on the extended
    reals), the weights through a same-shape cast, the product into zeros, the bias [N] viewed as [1, N], repeated
    down the rows and added — at (p, q) is `dense` of row p.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.DenseLayer

open Idealize.ShloMosaic Idealize.ShloMosaic.ValueIdx

/-- One affine layer applied to a row `h` of `K` features: output feature `j` is the inner product of the row with
    column `j` of the weights, plus the bias. -/
def dense {K N : ℕ} (W : Fin K → Fin N → EReal) (b : Fin N → EReal) (h : Fin K → EReal) (j : Fin N) : EReal :=
  (∑ k : Fin K, h k * W k j) + b j

/-! ## A matrix product and a bias row, read at an index -/

/-- A matrix product of an [M, K] by a [K, N] operand into the zero accumulator, read at (p, q): the inner product
    of row p with column q. The hypotheses are the facts of the dimension record: one contracted axis of extent K,
    axis 1 of the left operand against axis 0 of the right, the free axes kept in place. -/
theorem matmul_zero_ix2 {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    (h : FVec Ideal ⟨2, ![M, K]⟩ φ₁) (w : FVec Ideal ⟨2, ![K, N]⟩ φ₂) (p : Fin M) (q : Fin N) :
    FloatOps.matmul D none h w (constant ⟨2, ![M, N]⟩ .f32 0x00000000#32) (ix2 p q)
      = ∑ k : Fin K, h (ix2 p k) * w (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact hr1 _ _)
  rw [el, er]

/-- A layer as the kernel body spells it — both operands narrowed to bf16 (the identity on the extended reals), the
    weights passed through a same-shape cast, the product taken into zeros, the bias row [N] viewed as [1, N] and
    repeated down the M rows, then added — read at (p, q): `dense` of row p. -/
theorem layer_ix2 {M K N : ℕ} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    (hn : FTy.bits .bf16 < FTy.bits .f32)
    (hww : (⟨2, ![K, N]⟩ : Shape).ShapeCasts ⟨2, ![K, N]⟩) (hb1 : (⟨1, ![N]⟩ : Shape).ShapeCasts ⟨2, ![1, N]⟩)
    (hbb : (⟨2, ![1, N]⟩ : Shape).Broadcasts ⟨2, ![M, N]⟩)
    (h : FVec Ideal ⟨2, ![M, K]⟩ .f32) (w : FVec Ideal ⟨2, ![K, N]⟩ .f32) (b : FVec Ideal ⟨1, ![N]⟩ .f32)
    (p : Fin M) (q : Fin N) :
    addf (matmul D none (truncf .bf16 h hn) (truncf .bf16 (shapeCast ⟨2, ![K, N]⟩ w hww) hn)
        (constant (F := Ideal) ⟨2, ![M, N]⟩ .f32 0x00000000#32))
      (broadcastTo ⟨2, ![M, N]⟩ (shapeCast ⟨2, ![1, N]⟩ b hb1) hbb) (ix2 p q)
      = dense (fun k j => w (ix2 k j)) (fun j => b (ix1 j)) (fun k => h (ix2 p k)) q := by
  rw [addf_apply, broadcastTo_1b_ab_apply, shapeCast_a_1a_apply, shapeCast_self]
  simp only [matmul]
  rw [matmul_zero_ix2 D hr hs hlc hrc hl0 hr1]
  rfl

end Cert.DenseLayer

end
-- ==== Proof.Layers.lean ====
/-
  The mathematics both programs share, stated once over plain functions of indices.

  * The head: the scaled row of 60 means through the feature layer (an affine layer `dense`, weights indexed
    (input feature, output feature) — the layout in which both programs feed them to their matrix product) and
    three relu layers to 3 outputs.
  * Eight sums of 512 consecutive terms are one sum of 4096 terms (a sum over Fin 8 x Fin 512 re-indexed by
    (s, r) -> 512 s + r); this is pure regrouping of a finite sum in a commutative monoid, so it holds at the
    infinities as well.
-/
import proofs.«129909_j75376676045074_2_alg».proof.Proof.LibDense
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.MeanMlp

open Idealize.ShloMosaic Idealize.ShloMosaic.ValueIdx Cert.DenseLayer

/-! ## The specification, one row at a time -/

/-- relu on the extended reals, the zero spelt as the float word both programs splat. -/
def relu0 (x : EReal) : EReal := max x (Ideal.ofBits .f32 0x00000000#32)

/-- The head on one row of 60 sequence means: the feature layer, three relu layers, the output layer. -/
def head (a : Fin 60 → EReal)
    (WE : Fin 60 → Fin 20 → EReal) (bE : Fin 20 → EReal) (W0 : Fin 20 → Fin 256 → EReal) (b0 : Fin 256 → EReal)
    (W1 : Fin 256 → Fin 128 → EReal) (b1 : Fin 128 → EReal) (W2 : Fin 128 → Fin 64 → EReal) (b2 : Fin 64 → EReal)
    (W3 : Fin 64 → Fin 3 → EReal) (b3 : Fin 3 → EReal) : Fin 3 → EReal :=
  dense W3 b3 fun k2 => relu0 (dense W2 b2 (fun k1 => relu0 (dense W1 b1 (fun k0 => relu0 (dense W0 b0 (dense WE bE a) k0)) k1)) k2)

/-! ## Regrouping the sequence sum -/

/-- Eight consecutive runs of 512 terms are the 4096 terms. -/
theorem sum_tiles {β : Type*} [AddCommMonoid β] (g : ℕ → β) :
    ∑ s ∈ Finset.range 8, ∑ r : Fin 512, g (512 * s + r.val) = ∑ n : Fin 4096, g n.val := by
  rw [Finset.sum_range]
  have e : ∑ n : Fin (8 * 512), g n.val = ∑ s : Fin 8, ∑ r : Fin 512, g (512 * s.val + r.val) := by
    rw [← Equiv.sum_comp finProdFinEquiv, Fintype.sum_prod_type]
    refine Finset.sum_congr rfl fun s _ => Finset.sum_congr rfl fun r _ => ?_
    show g (r.val + 512 * s.val) = _
    rw [Nat.add_comm]
  exact e.symm

end Cert.MeanMlp

end
-- ==== Proof.BlockReads.lean ====
/-
  What each window's block holds, entry by entry, in terms of the argument arrays; and from that, the accumulator after
  the last sequence tile of a batch tile as the full sum over the 4096 sequence positions.

  Point t = 8 b + s loads block (b, s, 0) of x: rows 64 b .. 64 b + 63, sequence positions 512 s .. 512 s + 511, all
  64 columns. The ten resident windows load their whole arrays at every point; five of them are the weight matrices
  transposed on the host beforehand, so entry (k, j) of such a block is entry (j, k) of the weight argument.
  The tile's column sum at (p, d) is the sum over its 512 positions; the eight tiles of one batch tile cover positions
  0 .. 4095 exactly once, so the accumulator ends at the sum over all 4096 positions (regrouping of a finite sum).
-/
import proofs.«129909_j75376676045074_2_alg».proof.Proof.Carried
import proofs.«129909_j75376676045074_2_alg».proof.Proof.Layers
import Idealize.ShloMosaic.Lib.StableHlo.Run
import Idealize.ShloMosaic.Lib.ValueLayout

noncomputable section

namespace Cert.KernelIdeal.BlockReads

open Idealize.ShloMosaic Idealize.ShloMosaic.TcCoe Idealize.SL.Sem Idealize.ShloMosaic.ValueIdx
open Cert.KernelIdeal Cert.KernelIdeal.Gen Cert.MeanMlp

variable (m : (ℓ : Loc nD τ sig) → Buf (Elt Ideal) ℓ)

/-- The printed index maps, decided once over the 16 grid points: x's block index is (t / 8, t % 8, 0), the output's
    (t / 8, 0), every resident window's all zeros. -/
theorem index_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val / 8 ∧ win0_11.index t (1 : Fin 2) = 0 :=
  (by decide +kernel : ∀ t : Fin grid0.N, _)

/-! ## The weight matrices as the region finds them: transposed on the host -/

/-- The [60, 20] array the feature-weight window loads is the [20, 60] argument transposed. -/
theorem staged_wE (c : Dev nD) : (V m c main_v0 : S60x20.Idx → EReal)
    = transpose S60x20 [1, 0] (m ((c : Thread nD τ).loc main_arg1)) Facts₀.transposes_S20x60_S60x20_1_0 := by
  dsimp only [Gen.V, Gen.hostOps0]; after_results

/-- The [20, 256] array is the [256, 20] argument transposed. -/
theorem staged_w0 (c : Dev nD) : (V m c main_v1 : S20x256.Idx → EReal)
    = transpose S20x256 [1, 0] (m ((c : Thread nD τ).loc main_arg3)) Facts₀.transposes_S256x20_S20x256_1_0 := by
  dsimp only [Gen.V, Gen.hostOps0]; after_results

/-- The [256, 128] array is the [128, 256] argument transposed. -/
theorem staged_w1 (c : Dev nD) : (V m c main_v2 : S256x128.Idx → EReal)
    = transpose S256x128 [1, 0] (m ((c : Thread nD τ).loc main_arg5)) Facts₀.transposes_S128x256_S256x128_1_0 := by
  dsimp only [Gen.V, Gen.hostOps0]; after_results

/-- The [128, 64] array is the [64, 128] argument transposed. -/
theorem staged_w2 (c : Dev nD) : (V m c main_v3 : S128x64.Idx → EReal)
    = transpose S128x64 [1, 0] (m ((c : Thread nD τ).loc main_arg7)) Facts₀.transposes_S64x128_S128x64_1_0 := by
  dsimp only [Gen.V, Gen.hostOps0]; after_results

/-- The [64, 3] array is the [3, 64] argument transposed. -/
theorem staged_w3 (c : Dev nD) : (V m c main_v4 : S64x3.Idx → EReal)
    = transpose S64x3 [1, 0] (m ((c : Thread nD τ).loc main_arg9)) Facts₀.transposes_S3x64_S64x3_1_0 := by
  dsimp only [Gen.V, Gen.hostOps0]; after_results

/-! ## Each block, entry by entry -/

/-- Entry (p, r, d) of the x tile at point t is x at row 64 (t / 8) + p, position 512 (t % 8) + r, column d. -/
theorem x_block (c : Dev nD) (t : Fin cfg0.N) (p : Fin 64) (r : Fin 512) (d : Fin 64) :
    (iblk m c 0 t : Vec Ideal S64x512x64 .f32) (ix3 p r d)
      = m ((c : Thread nD τ).loc main_arg0)
          (ix3 (⟨64 * (t.val / 8) + p.val, by have := t.isLt; have hN : cfg0.N = 16 := N_0; omega⟩ : Fin 128)
            (⟨512 * (t.val % 8) + r.val, by omega⟩ : Fin 4096) d) := by
  obtain ⟨e0, e1, e2, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 64 + 1 * p.val = 64 * (t.val / 8) + p.val; rw [e0]; omega
  | ⟨1, _⟩ => show win0_0.index t (1 : Fin 3) * 512 + 1 * r.val = 512 * (t.val % 8) + r.val; rw [e1]; omega
  | ⟨2, _⟩ => show win0_0.index t (2 : Fin 3) * 64 + 1 * d.val = d.val; rw [e2]; omega

/-- Entry (k, j) of the feature weights' block is entry (j, k) of the [20, 60] argument. -/
theorem wE_block (c : Dev nD) (t : Fin cfg0.N) (k : Fin 60) (j : Fin 20) :
    (iblk m c 1 t : Vec Ideal S60x20 .f32) (ix2 k j) = m ((c : Thread nD τ).loc main_arg1) (ix2 j k) := by
  obtain ⟨-, -, -, e0, e1, -⟩ := index_facts t
  unfold iblk
  rw [View.read_apply]
  show V m c main_v0 _ = _
  rw [staged_wE, ← transpose_ix2_apply (m ((c : Thread nD τ).loc main_arg1)) Facts₀.transposes_S20x60_S60x20_1_0 k j]
  refine congrArg _ (funext fun a => Fin.ext ?_)
  match a with
  | ⟨0, _⟩ => show win0_1.index t (0 : Fin 2) * 60 + 1 * k.val = k.val; rw [e0]; omega
  | ⟨1, _⟩ => show win0_1.index t (1 : Fin 2) * 20 + 1 * j.val = j.val; rw [e1]; omega

/-- Entry j of the feature bias block is entry j of the argument. -/
theorem bE_block (c : Dev nD) (t : Fin cfg0.N) (j : Fin 20) :
    (iblk m c 2 t : Vec Ideal S20 .f32) (ix1 j) = m ((c : Thread nD τ).loc main_arg2) (ix1 j) := by
  obtain ⟨-, -, -, -, -, e0, -⟩ := index_facts t
  unfold iblk
  rw [View.read_apply]
  show V m c main_arg2 _ = _
  rw [V_main_arg2]
  refine congrArg _ (funext fun a => Fin.ext ?_)
  match a with
  | ⟨0, _⟩ => show win0_2.index t (0 : Fin 1) * 20 + 1 * j.val = j.val; rw [e0]; omega

/-- Entry (k, j) of the first hidden weights' block is entry (j, k) of the [256, 20] argument. -/
theorem w0_block (c : Dev nD) (t : Fin cfg0.N) (k : Fin 20) (j : Fin 256) :
    (iblk m c 3 t : Vec Ideal S20x256 .f32) (ix2 k j) = m ((c : Thread nD τ).loc main_arg3) (ix2 j k) := by
  obtain ⟨-, -, -, -, -, -, e0, e1, -⟩ := index_facts t
  unfold iblk
  rw [View.read_apply]
  show V m c main_v1 _ = _
  rw [staged_w0, ← transpose_ix2_apply (m ((c : Thread nD τ).loc main_arg3)) Facts₀.transposes_S256x20_S20x256_1_0 k j]
  refine congrArg _ (funext fun a => Fin.ext ?_)
  match a with
  | ⟨0, _⟩ => show win0_3.index t (0 : Fin 2) * 20 + 1 * k.val = k.val; rw [e0]; omega
  | ⟨1, _⟩ => show win0_3.index t (1 : Fin 2) * 256 + 1 * j.val = j.val; rw [e1]; omega

/-- Entry j of the first hidden bias block is entry j of the argument. -/
theorem b0_block (c : Dev nD) (t : Fin cfg0.N) (j : Fin 256) :
    (iblk m c 4 t : Vec Ideal S256 .f32) (ix1 j) = m ((c : Thread nD τ).loc main_arg4) (ix1 j) := by
  obtain ⟨-, -, -, -, -, -, -, -, e0, -⟩ := index_facts t
  unfold iblk
  rw [View.read_apply]
  show V m c main_arg4 _ = _
  rw [V_main_arg4]
  refine congrArg _ (funext fun a => Fin.ext ?_)
  match a with
  | ⟨0, _⟩ => show win0_4.index t (0 : Fin 1) * 256 + 1 * j.val = j.val; rw [e0]; omega

/-- Entry (k, j) of the second hidden weights' block is entry (j, k) of the [128, 256] argument. -/
theorem w1_block (c : Dev nD) (t : Fin cfg0.N) (k : Fin 256) (j : Fin 128) :
    (iblk m c 5 t : Vec Ideal S256x128 .f32) (ix2 k j) = m ((c : Thread nD τ).loc main_arg5) (ix2 j k) := by
  obtain ⟨-, -, -, -, -, -, -, -, -, e0, e1, -⟩ := index_facts t
  unfold iblk
  rw [View.read_apply]
  show V m c main_v2 _ = _
  rw [staged_w1, ← transpose_ix2_apply (m ((c : Thread nD τ).loc main_arg5)) Facts₀.transposes_S128x256_S256x128_1_0 k j]
  refine congrArg _ (funext fun a => Fin.ext ?_)
  match a with
  | ⟨0, _⟩ => show win0_5.index t (0 : Fin 2) * 256 + 1 * k.val = k.val; rw [e0]; omega
  | ⟨1, _⟩ => show win0_5.index t (1 : Fin 2) * 128 + 1 * j.val = j.val; rw [e1]; omega

/-- Entry j of the second hidden bias block is entry j of the argument. -/
theorem b1_block (c : Dev nD) (t : Fin cfg0.N) (j : Fin 128) :
    (iblk m c 6 t : Vec Ideal S128 .f32) (ix1 j) = m ((c : Thread nD τ).loc main_arg6) (ix1 j) := by
  obtain ⟨-, -, -, -, -, -, -, -, -, -, -, e0, -⟩ := index_facts t
  unfold iblk
  rw [View.read_apply]
  show V m c main_arg6 _ = _
  rw [V_main_arg6]
  refine congrArg _ (funext fun a => Fin.ext ?_)
  match a with
  | ⟨0, _⟩ => show win0_6.index t (0 : Fin 1) * 128 + 1 * j.val = j.val; rw [e0]; omega

/-- Entry (k, j) of the third hidden weights' block is entry (j, k) of the [64, 128] argument. -/
theorem w2_block (c : Dev nD) (t : Fin cfg0.N) (k : Fin 128) (j : Fin 64) :
    (iblk m c 7 t : Vec Ideal S128x64 .f32) (ix2 k j) = m ((c : Thread nD τ).loc main_arg7) (ix2 j k) := by
  obtain ⟨-, -, -, -, -, -, -, -, -, -, -, -, e0, e1, -⟩ := index_facts t
  unfold iblk
  rw [View.read_apply]
  show V m c main_v3 _ = _
  rw [staged_w2, ← transpose_ix2_apply (m ((c : Thread nD τ).loc main_arg7)) Facts₀.transposes_S64x128_S128x64_1_0 k j]
  refine congrArg _ (funext fun a => Fin.ext ?_)
  match a with
  | ⟨0, _⟩ => show win0_7.index t (0 : Fin 2) * 128 + 1 * k.val = k.val; rw [e0]; omega
  | ⟨1, _⟩ => show win0_7.index t (1 : Fin 2) * 64 + 1 * j.val = j.val; rw [e1]; omega

/-- Entry j of the third hidden bias block is entry j of the argument. -/
theorem b2_block (c : Dev nD) (t : Fin cfg0.N) (j : Fin 64) :
    (iblk m c 8 t : Vec Ideal S64 .f32) (ix1 j) = m ((c : Thread nD τ).loc main_arg8) (ix1 j) := by
  obtain ⟨-, -, -, -, -, -, -, -, -, -, -, -, -, -, e0, -⟩ := index_facts t
  unfold iblk
  rw [View.read_apply]
  show V m c main_arg8 _ = _
  rw [V_main_arg8]
  refine congrArg _ (funext fun a => Fin.ext ?_)
  match a with
  | ⟨0, _⟩ => show win0_8.index t (0 : Fin 1) * 64 + 1 * j.val = j.val; rw [e0]; omega

/-- Entry (k, j) of the output weights' block is entry (j, k) of the [3, 64] argument. -/
theorem w3_block (c : Dev nD) (t : Fin cfg0.N) (k : Fin 64) (j : Fin 3) :
    (iblk m c 9 t : Vec Ideal S64x3 .f32) (ix2 k j) = m ((c : Thread nD τ).loc main_arg9) (ix2 j k) := by
  obtain ⟨-, -, -, -, -, -, -, -, -, -, -, -, -, -, -, e0, e1, -⟩ := index_facts t
  unfold iblk
  rw [View.read_apply]
  show V m c main_v4 _ = _
  rw [staged_w3, ← transpose_ix2_apply (m ((c : Thread nD τ).loc main_arg9)) Facts₀.transposes_S3x64_S64x3_1_0 k j]
  refine congrArg _ (funext fun a => Fin.ext ?_)
  match a with
  | ⟨0, _⟩ => show win0_9.index t (0 : Fin 2) * 64 + 1 * k.val = k.val; rw [e0]; omega
  | ⟨1, _⟩ => show win0_9.index t (1 : Fin 2) * 3 + 1 * j.val = j.val; rw [e1]; omega

/-- Entry j of the output bias block is entry j of the argument. -/
theorem b3_block (c : Dev nD) (t : Fin cfg0.N) (j : Fin 3) :
    (iblk m c 10 t : Vec Ideal S3 .f32) (ix1 j) = m ((c : Thread nD τ).loc main_arg10) (ix1 j) := by
  obtain ⟨-, -, -, -, -, -, -, -, -, -, -, -, -, -, -, -, -, e0, -⟩ := index_facts t
  unfold iblk
  rw [View.read_apply]
  show V m c main_arg10 _ = _
  rw [V_main_arg10]
  refine congrArg _ (funext fun a => Fin.ext ?_)
  match a with
  | ⟨0, _⟩ => show win0_10.index t (0 : Fin 1) * 3 + 1 * j.val = j.val; rw [e0]; omega

/-! ## The accumulator after the last tile: the sum over all 4096 positions -/

/-- A tile's column sum at (p, d): the sum of its 512 entries (p, r, d). -/
theorem tileSums_apply (v : Vec Ideal S64x512x64 .f32) (p d : Fin 64) :
    (Carried.tileSums v (ix2 p d) : EReal) = ∑ r : Fin 512, v (ix3 p r d) := by
  unfold Carried.tileSums
  refine (Ideal.multiReduction_add_single (s := S64x512x64) (t := S64x64) (a := (1 : Fin 3)) v 0x00000000#32
    Facts₀.reduces_S64x512x64_S64x64 (.inl rfl) rfl (ix2 p d)).trans ?_
  refine Finset.sum_congr rfl fun r _ => congrArg v (funext fun a => Fin.ext ?_)
  match a with
  | ⟨0, _⟩ => rfl
  | ⟨1, _⟩ => rfl
  | ⟨2, _⟩ => rfl

/-- x along the sequence axis at a fixed (row, column), extended by zero past 4096 so that it is a function of every
    natural number (the values past the end are never used). -/
def seqAt (c : Dev nD) (row : Fin 128) (d : Fin 64) (u : ℕ) : EReal :=
  if h : u < 4096 then m ((c : Thread nD τ).loc main_arg0) (ix3 row ⟨u, h⟩ d) else 0

/-- x at (row, position s, column d), as an extended real. -/
def xAt (c : Dev nD) (row : Fin 128) (d : Fin 64) (s : Fin 4096) : EReal :=
  m ((c : Thread nD τ).loc main_arg0) (ix3 row s d)

/-- AFTER THE LAST TILE of batch tile t / 8, the accumulator at (p, d) is the sum of x over all 4096 positions at
    row 64 (t / 8) + p, column d. -/
theorem acc_full (c : Dev nD) (t : Fin cfg0.N) (h7 : t.val % 8 = 7) (p d : Fin 64) :
    ((outsAt0 m c t.val t.isLt).2 (ix2 p d) : EReal)
      = ∑ s : Fin 4096, xAt m c (⟨64 * (t.val / 8) + p.val, by have := t.isLt; have hN : cfg0.N = 16 := N_0; omega⟩ : Fin 128) d s := by
  have hN : cfg0.N = 16 := N_0
  have ht := t.isLt
  rw [Carried.acc_after m c t (ix2 p d), zero_add, h7]
  have hrow : ∀ s ∈ Finset.range (7 + 1), Carried.addend m c (8 * (t.val / 8) + s) (ix2 p d)
      = ∑ r : Fin 512, seqAt m c ⟨64 * (t.val / 8) + p.val, by omega⟩ d (512 * s + r.val) := by
    intro s hs
    have hs' : s < 8 := by simpa using hs
    have hb : 8 * (t.val / 8) + s < cfg0.N := by omega
    unfold Carried.addend
    rw [dif_pos hb, tileSums_apply]
    refine Finset.sum_congr rfl fun r _ => ?_
    have hr := r.isLt
    rw [x_block m c ⟨8 * (t.val / 8) + s, hb⟩ p r d]
    unfold seqAt
    rw [dif_pos (by omega : 512 * s + r.val < 4096)]
    refine congrArg (m ((c : Thread nD τ).loc main_arg0)) (funext fun a => Fin.ext ?_)
    match a with
    | ⟨0, _⟩ => show 64 * ((8 * (t.val / 8) + s) / 8) + p.val = 64 * (t.val / 8) + p.val; omega
    | ⟨1, _⟩ => show 512 * ((8 * (t.val / 8) + s) % 8) + r.val = 512 * s + r.val; omega
    | ⟨2, _⟩ => rfl
  rw [Finset.sum_congr rfl hrow, sum_tiles]
  refine Finset.sum_congr rfl fun s _ => ?_
  unfold seqAt xAt
  rw [dif_pos s.isLt]

end Cert.KernelIdeal.BlockReads

end
-- ==== Proof.Head.lean ====
/-
  The kernel body's two head terms, read at an index.

  At the last sequence tile the body takes the 64 x 64 accumulator `acc`, scales it by 1/4096, keeps the first 60
  columns, and applies five layers, each a matrix product with a resident weight block (already laid out
  [inputs, outputs]) plus a bias row, with relu after the middle three. Every one of these operations acts on each
  of the 64 rows separately, so output (p, q) is the row-wise `head` of row p of the scaled accumulator.
-/
import proofs.«129909_j75376676045074_2_alg».proof.Proof.Gen.KernelIdeal.Skeleton
import proofs.«129909_j75376676045074_2_alg».proof.Proof.Layers

noncomputable section

namespace Cert.KernelIdeal.Head

open Idealize.ShloMosaic Idealize.ShloMosaic.ValueIdx
open Cert.KernelIdeal Cert.KernelIdeal.Gen Cert.MeanMlp Cert.DenseLayer

/-- The feature layer: 60 means to 20 features. -/
theorem feature_layer (h : FVec Ideal S64x60 .f32) (w : FVec Ideal S60x20 .f32) (b : FVec Ideal S20 .f32) (p : Fin 64) (q : Fin 20) :
    addf (matmul dot_S64x60_S60x20_S64x20_1_0_0_1_n_n none (truncf .bf16 h Facts₀.bitsLt_bf16_f32)
        (truncf .bf16 (shapeCast S60x20 w Facts₀.shapeCasts_S60x20_S60x20) Facts₀.bitsLt_bf16_f32) (constant (F := Ideal) S64x20 .f32 0x00000000#32))
      (broadcastTo S64x20 (shapeCast S1x20 b Facts₀.shapeCasts_S20_S1x20) Facts₀.broadcasts_S1x20_S64x20) (ix2 p q)
      = dense (fun k j => w (ix2 k j)) (fun j => b (ix1 j)) (fun k => h (ix2 p k)) q :=
  layer_ix2 (M := 64) (K := 60) (N := 20) dot_S64x60_S60x20_S64x20_1_0_0_1_n_n rfl rfl rfl rfl
    (fun i q => by
      unfold DotDims.lhsIdx
      rw [dif_neg (show ¬(0 : Fin S64x60.rank) ∈ dot_S64x60_S60x20_S64x20_1_0_0_1_n_n.lhsBatch by decide),
        dif_pos (show (0 : Fin S64x60.rank) ∈ dot_S64x60_S60x20_S64x20_1_0_0_1_n_n.lhsNonContracting by decide)]
      rfl)
    (fun i q => by
      unfold DotDims.rhsIdx
      rw [dif_neg (show ¬(1 : Fin S60x20.rank) ∈ dot_S64x60_S60x20_S64x20_1_0_0_1_n_n.rhsBatch by decide),
        dif_pos (show (1 : Fin S60x20.rank) ∈ dot_S64x60_S60x20_S64x20_1_0_0_1_n_n.rhsNonContracting by decide)]
      rfl)
    Facts₀.bitsLt_bf16_f32 Facts₀.shapeCasts_S60x20_S60x20 Facts₀.shapeCasts_S20_S1x20 Facts₀.broadcasts_S1x20_S64x20 h w b p q

/-- The first hidden layer: 20 features to 256. -/
theorem hidden_layer0 (h : FVec Ideal S64x20 .f32) (w : FVec Ideal S20x256 .f32) (b : FVec Ideal S256 .f32) (p : Fin 64) (q : Fin 256) :
    addf (matmul dot_S64x20_S20x256_S64x256_1_0_0_1_n_n none (truncf .bf16 h Facts₀.bitsLt_bf16_f32)
        (truncf .bf16 (shapeCast S20x256 w Facts₀.shapeCasts_S20x256_S20x256) Facts₀.bitsLt_bf16_f32) (constant (F := Ideal) S64x256 .f32 0x00000000#32))
      (broadcastTo S64x256 (shapeCast S1x256 b Facts₀.shapeCasts_S256_S1x256) Facts₀.broadcasts_S1x256_S64x256) (ix2 p q)
      = dense (fun k j => w (ix2 k j)) (fun j => b (ix1 j)) (fun k => h (ix2 p k)) q :=
  layer_ix2 (M := 64) (K := 20) (N := 256) dot_S64x20_S20x256_S64x256_1_0_0_1_n_n rfl rfl rfl rfl
    (fun i q => by
      unfold DotDims.lhsIdx
      rw [dif_neg (show ¬(0 : Fin S64x20.rank) ∈ dot_S64x20_S20x256_S64x256_1_0_0_1_n_n.lhsBatch by decide),
        dif_pos (show (0 : Fin S64x20.rank) ∈ dot_S64x20_S20x256_S64x256_1_0_0_1_n_n.lhsNonContracting by decide)]
      rfl)
    (fun i q => by
      unfold DotDims.rhsIdx
      rw [dif_neg (show ¬(1 : Fin S20x256.rank) ∈ dot_S64x20_S20x256_S64x256_1_0_0_1_n_n.rhsBatch by decide),
        dif_pos (show (1 : Fin S20x256.rank) ∈ dot_S64x20_S20x256_S64x256_1_0_0_1_n_n.rhsNonContracting by decide)]
      rfl)
    Facts₀.bitsLt_bf16_f32 Facts₀.shapeCasts_S20x256_S20x256 Facts₀.shapeCasts_S256_S1x256 Facts₀.broadcasts_S1x256_S64x256 h w b p q

/-- The second hidden layer: 256 to 128. -/
theorem hidden_layer1 (h : FVec Ideal S64x256 .f32) (w : FVec Ideal S256x128 .f32) (b : FVec Ideal S128 .f32) (p : Fin 64) (q : Fin 128) :
    addf (matmul dot_S64x256_S256x128_S64x128_1_0_0_1_n_n none (truncf .bf16 h Facts₀.bitsLt_bf16_f32)
        (truncf .bf16 (shapeCast S256x128 w Facts₀.shapeCasts_S256x128_S256x128) Facts₀.bitsLt_bf16_f32) (constant (F := Ideal) S64x128 .f32 0x00000000#32))
      (broadcastTo S64x128 (shapeCast S1x128 b Facts₀.shapeCasts_S128_S1x128) Facts₀.broadcasts_S1x128_S64x128) (ix2 p q)
      = dense (fun k j => w (ix2 k j)) (fun j => b (ix1 j)) (fun k => h (ix2 p k)) q :=
  layer_ix2 (M := 64) (K := 256) (N := 128) dot_S64x256_S256x128_S64x128_1_0_0_1_n_n rfl rfl rfl rfl
    (fun i q => by
      unfold DotDims.lhsIdx
      rw [dif_neg (show ¬(0 : Fin S64x256.rank) ∈ dot_S64x256_S256x128_S64x128_1_0_0_1_n_n.lhsBatch by decide),
        dif_pos (show (0 : Fin S64x256.rank) ∈ dot_S64x256_S256x128_S64x128_1_0_0_1_n_n.lhsNonContracting by decide)]
      rfl)
    (fun i q => by
      unfold DotDims.rhsIdx
      rw [dif_neg (show ¬(1 : Fin S256x128.rank) ∈ dot_S64x256_S256x128_S64x128_1_0_0_1_n_n.rhsBatch by decide),
        dif_pos (show (1 : Fin S256x128.rank) ∈ dot_S64x256_S256x128_S64x128_1_0_0_1_n_n.rhsNonContracting by decide)]
      rfl)
    Facts₀.bitsLt_bf16_f32 Facts₀.shapeCasts_S256x128_S256x128 Facts₀.shapeCasts_S128_S1x128 Facts₀.broadcasts_S1x128_S64x128 h w b p q

/-- The third hidden layer: 128 to 64. -/
theorem hidden_layer2 (h : FVec Ideal S64x128 .f32) (w : FVec Ideal S128x64 .f32) (b : FVec Ideal S64 .f32) (p : Fin 64) (q : Fin 64) :
    addf (matmul dot_S64x128_S128x64_S64x64_1_0_0_1_n_n none (truncf .bf16 h Facts₀.bitsLt_bf16_f32)
        (truncf .bf16 (shapeCast S128x64 w Facts₀.shapeCasts_S128x64_S128x64) Facts₀.bitsLt_bf16_f32) (constant (F := Ideal) S64x64 .f32 0x00000000#32))
      (broadcastTo S64x64 (shapeCast S1x64 b Facts₀.shapeCasts_S64_S1x64) Facts₀.broadcasts_S1x64_S64x64) (ix2 p q)
      = dense (fun k j => w (ix2 k j)) (fun j => b (ix1 j)) (fun k => h (ix2 p k)) q :=
  layer_ix2 (M := 64) (K := 128) (N := 64) dot_S64x128_S128x64_S64x64_1_0_0_1_n_n rfl rfl rfl rfl
    (fun i q => by
      unfold DotDims.lhsIdx
      rw [dif_neg (show ¬(0 : Fin S64x128.rank) ∈ dot_S64x128_S128x64_S64x64_1_0_0_1_n_n.lhsBatch by decide),
        dif_pos (show (0 : Fin S64x128.rank) ∈ dot_S64x128_S128x64_S64x64_1_0_0_1_n_n.lhsNonContracting by decide)]
      rfl)
    (fun i q => by
      unfold DotDims.rhsIdx
      rw [dif_neg (show ¬(1 : Fin S128x64.rank) ∈ dot_S64x128_S128x64_S64x64_1_0_0_1_n_n.rhsBatch by decide),
        dif_pos (show (1 : Fin S128x64.rank) ∈ dot_S64x128_S128x64_S64x64_1_0_0_1_n_n.rhsNonContracting by decide)]
      rfl)
    Facts₀.bitsLt_bf16_f32 Facts₀.shapeCasts_S128x64_S128x64 Facts₀.shapeCasts_S64_S1x64 Facts₀.broadcasts_S1x64_S64x64 h w b p q

/-- The output layer: 64 to 3. -/
theorem output_layer (h : FVec Ideal S64x64 .f32) (w : FVec Ideal S64x3 .f32) (b : FVec Ideal S3 .f32) (p : Fin 64) (q : Fin 3) :
    addf (matmul dot_S64x64_S64x3_S64x3_1_0_0_1_n_n none (truncf .bf16 h Facts₀.bitsLt_bf16_f32)
        (truncf .bf16 (shapeCast S64x3 w Facts₀.shapeCasts_S64x3_S64x3) Facts₀.bitsLt_bf16_f32) (constant (F := Ideal) S64x3 .f32 0x00000000#32))
      (broadcastTo S64x3 (shapeCast S1x3 b Facts₀.shapeCasts_S3_S1x3) Facts₀.broadcasts_S1x3_S64x3) (ix2 p q)
      = dense (fun k j => w (ix2 k j)) (fun j => b (ix1 j)) (fun k => h (ix2 p k)) q :=
  layer_ix2 (M := 64) (K := 64) (N := 3) dot_S64x64_S64x3_S64x3_1_0_0_1_n_n rfl rfl rfl rfl
    (fun i q => by
      unfold DotDims.lhsIdx
      rw [dif_neg (show ¬(0 : Fin S64x64.rank) ∈ dot_S64x64_S64x3_S64x3_1_0_0_1_n_n.lhsBatch by decide),
        dif_pos (show (0 : Fin S64x64.rank) ∈ dot_S64x64_S64x3_S64x3_1_0_0_1_n_n.lhsNonContracting by decide)]
      rfl)
    (fun i q => by
      unfold DotDims.rhsIdx
      rw [dif_neg (show ¬(1 : Fin S64x3.rank) ∈ dot_S64x64_S64x3_S64x3_1_0_0_1_n_n.rhsBatch by decide),
        dif_pos (show (1 : Fin S64x3.rank) ∈ dot_S64x64_S64x3_S64x3_1_0_0_1_n_n.rhsNonContracting by decide)]
      rfl)
    Facts₀.bitsLt_bf16_f32 Facts₀.shapeCasts_S64x3_S64x3 Facts₀.shapeCasts_S3_S1x3 Facts₀.broadcasts_S1x3_S64x3 h w b p q

/-- The scaled accumulator, cut to its first 60 columns, read at (p, k): entry (p, k) of the accumulator times the
    kernel's 1/4096 word. -/
theorem scaled_row (acc : FVec Ideal S64x64 .f32) (p : Fin 64) (k : Fin 60) :
    extractStridedSlice S64x60 ![0, 0] (mulf acc (broadcast S64x64 (Scalar.ofBits (F := Ideal) .f32 0x39800000#32)))
        Facts₀.slices_S64x64_o0_0_S64x60 (ix2 p k)
      = acc (ix2 p (Fin.castLE (by decide) k)) * Ideal.ofBits .f32 0x39800000#32 := by
  rw [slice2_axis1_apply 0 _ Facts₀.slices_S64x64_o0_0_S64x60 p k (Fin.castLE (by decide) k) (by simp)]
  rfl

/-- THE HEAD AT AN INDEX: the body's two head terms composed, at (p, q), are the row-wise head of row p of the
    scaled accumulator, with the weight blocks indexed (input, output) and the bias blocks as they are. -/
theorem head_apply (acc : Vec Ideal S64x64 .f32) (x1 : Vec Ideal S60x20 .f32) (x2 : Vec Ideal S20 .f32)
    (x3 : Vec Ideal S20x256 .f32) (x4 : Vec Ideal S256 .f32) (x5 : Vec Ideal S256x128 .f32) (x6 : Vec Ideal S128 .f32)
    (x7 : Vec Ideal S128x64 .f32) (x8 : Vec Ideal S64 .f32) (x9 : Vec Ideal S64x3 .f32) (x10 : Vec Ideal S3 .f32)
    (p : Fin 64) (q : Fin 3) :
    k0_pay3 (k0_pay4 acc x1 x2 x3 x4 x5 x6 x7) x8 x9 x10 (ix2 p q)
      = head (fun k => acc (ix2 p (Fin.castLE (by decide) k)) * Ideal.ofBits .f32 0x39800000#32)
          (fun k j => x1 (ix2 k j)) (fun j => x2 (ix1 j)) (fun k j => x3 (ix2 k j)) (fun j => x4 (ix1 j))
          (fun k j => x5 (ix2 k j)) (fun j => x6 (ix1 j)) (fun k j => x7 (ix2 k j)) (fun j => x8 (ix1 j))
          (fun k j => x9 (ix2 k j)) (fun j => x10 (ix1 j)) q := by
  unfold k0_pay3 k0_pay4 head
  rw [output_layer]
  refine congrArg (fun h => dense _ _ h q) (funext fun k2 => ?_)
  rw [maximumf_apply, broadcast_apply, hidden_layer2]
  refine congrArg (fun h => relu0 (dense _ _ h k2)) (funext fun k1 => ?_)
  rw [maximumf_apply, broadcast_apply, hidden_layer1]
  refine congrArg (fun h => relu0 (dense _ _ h k1)) (funext fun k0 => ?_)
  rw [maximumf_apply, broadcast_apply, hidden_layer0]
  refine congrArg (fun h => relu0 (dense _ _ h k0)) (funext fun kf => ?_)
  rw [feature_layer]
  refine congrArg (fun h => dense _ _ h kf) (funext fun k => ?_)
  exact scaled_row acc p k

end Cert.KernelIdeal.Head

end
-- ==== Proof.Result.lean ====
/-
  The result both programs compute, as one function of the eleven argument arrays.

  Row r of the [128, 3] result is the row-wise head applied to the 60 sequence means of row r of x,
      mean r k = (sum over the 4096 positions s of x[r, s, k]) * (1/4096),
  with the weight arguments, stored [outputs, inputs], read transposed.
-/
import proofs.«129909_j75376676045074_2_alg».proof.Proof.Layers

noncomputable section

namespace Cert.MeanMlp

open Idealize.ShloMosaic Idealize.ShloMosaic.ValueIdx

/-- Row `r` of the result. -/
def resultRow (x : (⟨3, ![128, 4096, 64]⟩ : Shape).Idx → EReal)
    (wE : (⟨2, ![20, 60]⟩ : Shape).Idx → EReal) (bE : (⟨1, ![20]⟩ : Shape).Idx → EReal)
    (w0 : (⟨2, ![256, 20]⟩ : Shape).Idx → EReal) (b0 : (⟨1, ![256]⟩ : Shape).Idx → EReal)
    (w1 : (⟨2, ![128, 256]⟩ : Shape).Idx → EReal) (b1 : (⟨1, ![128]⟩ : Shape).Idx → EReal)
    (w2 : (⟨2, ![64, 128]⟩ : Shape).Idx → EReal) (b2 : (⟨1, ![64]⟩ : Shape).Idx → EReal)
    (w3 : (⟨2, ![3, 64]⟩ : Shape).Idx → EReal) (b3 : (⟨1, ![3]⟩ : Shape).Idx → EReal) (r : Fin 128) : Fin 3 → EReal :=
  head (fun k => (∑ s : Fin 4096, x (ix3 r s (Fin.castLE (by decide) k))) * Ideal.ofBits .f32 0x39800000#32)
    (fun k j => wE (ix2 j k)) (fun j => bE (ix1 j)) (fun k j => w0 (ix2 j k)) (fun j => b0 (ix1 j))
    (fun k j => w1 (ix2 j k)) (fun j => b1 (ix1 j)) (fun k j => w2 (ix2 j k)) (fun j => b2 (ix1 j))
    (fun k j => w3 (ix2 j k)) (fun j => b3 (ix1 j))

/-- The [128, 3] result array. -/
def result (x : (⟨3, ![128, 4096, 64]⟩ : Shape).Idx → EReal)
    (wE : (⟨2, ![20, 60]⟩ : Shape).Idx → EReal) (bE : (⟨1, ![20]⟩ : Shape).Idx → EReal)
    (w0 : (⟨2, ![256, 20]⟩ : Shape).Idx → EReal) (b0 : (⟨1, ![256]⟩ : Shape).Idx → EReal)
    (w1 : (⟨2, ![128, 256]⟩ : Shape).Idx → EReal) (b1 : (⟨1, ![128]⟩ : Shape).Idx → EReal)
    (w2 : (⟨2, ![64, 128]⟩ : Shape).Idx → EReal) (b2 : (⟨1, ![64]⟩ : Shape).Idx → EReal)
    (w3 : (⟨2, ![3, 64]⟩ : Shape).Idx → EReal) (b3 : (⟨1, ![3]⟩ : Shape).Idx → EReal) :
    (⟨2, ![128, 3]⟩ : Shape).Idx → EReal :=
  fun i => resultRow x wE bE w0 b0 w1 b1 w2 b2 w3 b3 ⟨(i 0).val, (i 0).isLt⟩ ⟨(i 1).val, (i 1).isLt⟩

end Cert.MeanMlp

end
-- ==== Proof.Whole.lean ====
/-
  The kernel's result array after the run: the function `result` of the argument arrays.

  The output block (b, 0) — rows 64 b .. 64 b + 63 of the [128, 3] array — is stored and written back only at the
  last sequence tile, t = 8 b + 7. What is written there is the head of the accumulator after that point, which is
  the full sequence sum of rows 64 b .. 64 b + 63 of x; so the block is rows 64 b .. of `result`. The two
  written-back blocks (b = 0, 1) cover all 128 rows, hence the whole array ends at `result`.
-/
import proofs.«129909_j75376676045074_2_alg».proof.Proof.BlockReads
import proofs.«129909_j75376676045074_2_alg».proof.Proof.Head
import proofs.«129909_j75376676045074_2_alg».proof.Proof.Result

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.MeanMlp Cert.DenseLayer Cert.KernelIdeal.BlockReads

variable (m : (ℓ : Loc nD τ sig) → Buf (Elt Ideal) ℓ) (ρ : Dev nD → PrngReg)

/-- The result array as a function of the arguments at launch. -/
def G (c : Dev nD) : Buf (Elt Ideal) ((c : Thread nD τ).loc main_v5) :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- `head` applied to equal rows, weights and biases gives equal results. -/
theorem head_congr {a a' : Fin 60 → EReal} {WE WE' : Fin 60 → Fin 20 → EReal} {bE bE' : Fin 20 → EReal}
    {W0 W0' : Fin 20 → Fin 256 → EReal} {b0 b0' : Fin 256 → EReal} {W1 W1' : Fin 256 → Fin 128 → EReal}
    {b1 b1' : Fin 128 → EReal} {W2 W2' : Fin 128 → Fin 64 → EReal} {b2 b2' : Fin 64 → EReal}
    {W3 W3' : Fin 64 → Fin 3 → EReal} {b3 b3' : Fin 3 → EReal}
    (ha : a = a') (hE : WE = WE') (hbE : bE = bE') (h0 : W0 = W0') (hb0 : b0 = b0') (h1 : W1 = W1') (hb1 : b1 = b1')
    (h2 : W2 = W2') (hb2 : b2 = b2') (h3 : W3 = W3') (hb3 : b3 = b3') (q : Fin 3) :
    head a WE bE W0 b0 W1 b1 W2 b2 W3 b3 q = head a' WE' bE' W0' b0' W1' b1' W2' b2' W3' b3' q := by
  subst ha hE hbE h0 hb0 h1 hb1 h2 hb2 h3 hb3
  rfl

/-- WHAT A WRITE-BACK WRITES: at a last sequence tile, the block of `G` the output window points at. The head reads the
    accumulator after this point's update, which is the full sequence sum of the block's rows; the resident blocks
    are the weight and bias arguments. -/
theorem flushed_eq (c : Dev nD) (t : Fin cfg0.N) (hf : (cfg0.win 11).flush t = true) :
    (dats m 0 c).flushed 11 t = ((cfg0.win 11).blk t).view.read (Elt Ideal) (G m c) := by
  have hN : cfg0.N = 16 := N_0
  have ht := t.isLt
  have h7 : t.val % 8 = 7 := (flush0_11 t).mp hf
  have h0 : ¬t.val % 8 = 0 := by omega
  obtain ⟨-, -, -, -, -, -, -, -, -, -, -, -, -, -, -, -, -, -, eo0, eo1⟩ := index_facts t
  rw [Value.flushed11_C m c t h0 h7, Stored.out_last]
  -- the accumulator the head reads is what the scratch holds after this point
  have hacc : k0_pay2 (outsAt0 m c (t.val - 1) (Nat.lt_of_le_of_lt (Nat.sub_le _ _) t.isLt)).2 (iblk m c 0 t)
      = (outsAt0 m c t.val t.isLt).2 := by
    rw [outsAt0_C m c t h0 h7]
    dsimp only
    exact (Stored.acc_last ..).symm
  rw [hacc]
  funext y
  obtain ⟨p, q, rfl⟩ : ∃ (p : Fin 64) (q : Fin 3), y = ix2 p q := ⟨y 0, y 1, eq_ix2 y⟩
  rw [View.read_apply]
  have hemb : ((cfg0.win 11).blk t).view.emb (ix2 p q)
      = ix2 (⟨64 * (t.val / 8) + p.val, by omega⟩ : Fin 128) q := funext fun a => Fin.ext (by
    match a with
    | ⟨0, _⟩ => show win0_11.index t (0 : Fin 2) * 64 + 1 * p.val = 64 * (t.val / 8) + p.val; rw [eo0]; omega
    | ⟨1, _⟩ => show win0_11.index t (1 : Fin 2) * 3 + 1 * q.val = q.val; rw [eo1]; omega)
  rw [hemb]
  show k0_pay3 (k0_pay4 (outsAt0 m c t.val t.isLt).2 (iblk m c 1 t) (iblk m c 2 t) (iblk m c 3 t) (iblk m c 4 t)
      (iblk m c 5 t) (iblk m c 6 t) (iblk m c 7 t)) (iblk m c 8 t) (iblk m c 9 t) (iblk m c 10 t) (ix2 p q)
    = resultRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (⟨64 * (t.val / 8) + p.val, by omega⟩ : Fin 128) q
  refine (Head.head_apply (outsAt0 m c t.val t.isLt).2 (iblk m c 1 t) (iblk m c 2 t) (iblk m c 3 t) (iblk m c 4 t)
      (iblk m c 5 t) (iblk m c 6 t) (iblk m c 7 t) (iblk m c 8 t) (iblk m c 9 t) (iblk m c 10 t) p q).trans ?_
  unfold resultRow
  refine head_congr (funext fun k => ?_) (funext fun k => funext fun j => wE_block m c t k j)
    (funext fun j => bE_block m c t j) (funext fun k => funext fun j => w0_block m c t k j)
    (funext fun j => b0_block m c t j) (funext fun k => funext fun j => w1_block m c t k j)
    (funext fun j => b1_block m c t j) (funext fun k => funext fun j => w2_block m c t k j)
    (funext fun j => b2_block m c t j) (funext fun k => funext fun j => w3_block m c t k j)
    (funext fun j => b3_block m c t j) q
  rw [acc_full m c t h7]
  rfl

/-- An index of the array is in point t's output block iff each coordinate is in the block's range. -/
theorem mem_blk (t : Fin cfg0.N) (i : S128x3.Idx) :
    i ∈ ((cfg0.win 11).blk t).view.set ↔ ∀ a : Fin 2, win0_11.index t a * S64x3.size a ≤ (i a).val
      ∧ (i a).val < win0_11.index t a * S64x3.size a + S64x3.size a := by
  show i ∈ ((View.whole main_v5).slice (win0_11.rect t)).set ↔ _
  rw [View.set_slice_whole, Rect.mem_set_unit]
  exact Iff.rfl

/-- Every row is in the block written back at the last sequence tile of its batch tile, t = 8 (row / 64) + 7. -/
theorem covered (i : S128x3.Idx) :
    ∃ t : Fin cfg0.N, (cfg0.win 11).flush t = true ∧ i ∈ ((cfg0.win 11).blk t).view.set := by
  have hN : cfg0.N = 16 := N_0
  have hi0 : (i 0).val < 128 := (i 0).isLt
  have hi1 : (i 1).val < 3 := (i 1).isLt
  have hb : 8 * ((i 0).val / 64) + 7 < cfg0.N := by omega
  obtain ⟨-, -, -, -, -, -, -, -, -, -, -, -, -, -, -, -, -, -, eo0, eo1⟩ := index_facts ⟨8 * ((i 0).val / 64) + 7, hb⟩
  refine ⟨⟨8 * ((i 0).val / 64) + 7, hb⟩, (flush0_11 _).mpr (by show (8 * ((i 0).val / 64) + 7) % 8 = 7; omega), ?_⟩
  rw [mem_blk]
  intro a
  match a with
  | ⟨0, _⟩ =>
    show win0_11.index ⟨8 * ((i 0).val / 64) + 7, hb⟩ (0 : Fin 2) * 64 ≤ (i 0).val
      ∧ (i 0).val < win0_11.index ⟨8 * ((i 0).val / 64) + 7, hb⟩ (0 : Fin 2) * 64 + 64
    rw [eo0]
    show (8 * ((i 0).val / 64) + 7) / 8 * 64 ≤ (i 0).val ∧ (i 0).val < (8 * ((i 0).val / 64) + 7) / 8 * 64 + 64
    omega
  | ⟨1, _⟩ =>
    show win0_11.index ⟨8 * ((i 0).val / 64) + 7, hb⟩ (1 : Fin 2) * 3 ≤ (i 1).val
      ∧ (i 1).val < win0_11.index ⟨8 * ((i 0).val / 64) + 7, hb⟩ (1 : Fin 2) * 3 + 3
    rw [eo1]
    omega

/-- THE ARRAY AFTER THE RUN is `G`. -/
theorem final (c : Dev nD) : (dats m 0 c).arrAt 11 cfg0.N = G m c :=
  (dats m 0 c).arrAt_eq_of_cover 11 (G m c) (flushed_eq m c) covered

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Whole

end
-- ==== Proof.MeanScale.lean ====
/-
  The two float words the programs spell around the mean over the 4096 sequence positions, as the extended reals
  they denote, and the one law that joins them.

  The kernel multiplies the accumulated column sums by the word `0x39800000`: sign 0, exponent field 115, mantissa 0,
  that is 2^(115 - 127) = 2^(-12) = 1/4096 exactly. The reference divides its column sums by the word `0x45800000`:
  exponent field 139, mantissa 0, that is 2^12 = 4096 exactly. Over the extended reals, dividing by a nonzero real
  is multiplying by its reciprocal at every argument, the two infinities included, so `x / 4096 = x * (1/4096)` holds
  with no finiteness assumption on `x`.
-/
import Idealize.ShloMosaic.PureOps.Ideal
import Idealize.ShloMosaic.PureOps.Ideal.Laws

noncomputable section

namespace Cert.MeanMlp

open Idealize.ShloMosaic

/-- The kernel's scale word denotes the real 1/4096 (it is the power of two 2^(-12)). -/
theorem ofBits_inv4096 : Ideal.ofBits .f32 0x39800000#32 = ((1 / 4096 : ℝ) : EReal) := by
  simp [Ideal.ofBits, Ideal.ieee, -EReal.coe_mul]; norm_num

/-- The reference's divisor word denotes the real 4096 (it is the power of two 2^12). -/
theorem ofBits_4096 : Ideal.ofBits .f32 0x45800000#32 = ((4096 : ℝ) : EReal) := by
  simp [Ideal.ofBits, Ideal.ieee, -EReal.coe_mul]; norm_num

/-- Dividing any extended real by the reference's 4096 is multiplying it by the kernel's 1/4096. -/
theorem div_4096_eq_mul (x : EReal) :
    Ideal.div x (Ideal.ofBits .f32 0x45800000#32) = x * Ideal.ofBits .f32 0x39800000#32 := by
  rw [ofBits_4096, ofBits_inv4096, Ideal.div_coe (by norm_num : (4096 : ℝ) ≠ 0)]

end Cert.MeanMlp

end
-- ==== Proof.RefStages.lean ====
/-
  The reference, stage by stage, read at an index.

  The reference slices x to its first 60 columns, sums over the 4096 positions from zero and divides by 4096 (the mean),
  then applies the same five layers as matrix products with the weight arguments transposed, bias rows repeated
  down the 128 rows, and a maximum with zero after the middle three. Each stage at (p, q) depends on row p of the stage
  before only, and is the row-wise `dense` (with relu where the maximum is). The mean's division by 4096 is the
  multiplication by 1/4096 (exact on all extended reals), and its leading zero is dropped.
-/
import proofs.«129909_j75376676045074_2_alg».proof.Proof.Gen.ReferenceIdeal.Read
import proofs.«129909_j75376676045074_2_alg».proof.Proof.MeanScale
import proofs.«129909_j75376676045074_2_alg».proof.Proof.Result

noncomputable section

namespace Cert.ReferenceIdeal.Stages

open Idealize.ShloMosaic Idealize.ShloMosaic.ValueIdx
open Cert.ReferenceIdeal Cert.ReferenceIdeal.Gen Cert.ReferenceIdeal.Read Cert.MeanMlp Cert.DenseLayer

variable (x0 : (⟨S128x4096x64, .f32⟩ : BufTy).Contents (Elt Ideal)) (x1 : (⟨S20x60, .f32⟩ : BufTy).Contents (Elt Ideal))
  (x2 : (⟨S20, .f32⟩ : BufTy).Contents (Elt Ideal)) (x3 : (⟨S256x20, .f32⟩ : BufTy).Contents (Elt Ideal))
  (x4 : (⟨S256, .f32⟩ : BufTy).Contents (Elt Ideal)) (x5 : (⟨S128x256, .f32⟩ : BufTy).Contents (Elt Ideal))
  (x6 : (⟨S128, .f32⟩ : BufTy).Contents (Elt Ideal)) (x7 : (⟨S64x128, .f32⟩ : BufTy).Contents (Elt Ideal))
  (x8 : (⟨S64, .f32⟩ : BufTy).Contents (Elt Ideal)) (x9 : (⟨S3x64, .f32⟩ : BufTy).Contents (Elt Ideal))
  (x10 : (⟨S3, .f32⟩ : BufTy).Contents (Elt Ideal))

/-- The mean of row p, column k: the sum over the 4096 positions times 1/4096. -/
theorem mean_apply (p : Fin 128) (k : Fin 60) :
    val_main_v3 (F := Ideal) x0 (ix2 p k)
      = (∑ s : Fin 4096, (x0 (ix3 p s (Fin.castLE (by decide) k)) : EReal)) * Ideal.ofBits .f32 0x39800000#32 := by
  rw [val_main_v3_apply, val_main_v1_apply, val_main_v2_apply, val_main_cst_0_apply, val_main_cst_apply]
  simp only [Ideal.hostDivf_def, Ideal.ofBits_def]
  rw [div_4096_eq_mul, Ideal.ofBits_zero_f32, zero_add]
  refine congrArg (· * _) (Finset.sum_congr rfl fun s _ => ?_)
  rw [val_main_v0_apply]
  refine congrArg x0 (funext fun a => Fin.ext ?_)
  match a with
  | ⟨0, _⟩ => rfl
  | ⟨1, _⟩ => rfl
  | ⟨2, _⟩ => rfl

/-- The 20 features of row p. -/
theorem features_apply (p : Fin 128) (q : Fin 20) :
    val_main_v8 (F := Ideal) x0 x1 x2 (ix2 p q)
      = dense (fun k j => x1 (ix2 j k)) (fun j => x2 (ix1 j)) (fun k => val_main_v3 (F := Ideal) x0 (ix2 p k)) q := by
  have el : ∀ k, lidx_main_v5 (ix2 p q) k = ix2 p k := fun k => funext fun a => Fin.ext (by match a with | ⟨0, _⟩ => rfl | ⟨1, _⟩ => rfl)
  have er : ∀ k, idx_main_v4 (ridx_main_v5 (ix2 p q) k) = ix2 q k := fun k => funext fun a => Fin.ext (by match a with | ⟨0, _⟩ => rfl | ⟨1, _⟩ => rfl)
  have eb : idx_main_v6 (idx_main_v7 (ix2 p q)) = ix1 q := funext fun a => Fin.ext (by match a with | ⟨0, _⟩ => rfl)
  rw [val_main_v8_apply, val_main_v5_apply, val_main_v7_apply, val_main_v6_apply, eb]
  unfold dense
  simp only [Ideal.addf_def]
  refine congrArg (· + _) (Finset.sum_congr rfl fun k _ => ?_)
  rw [el, val_main_v4_apply, er]

/-- The first hidden layer of row p. -/
theorem hidden0_apply (p : Fin 128) (q : Fin 256) :
    val_main_v14 (F := Ideal) x0 x1 x2 x3 x4 (ix2 p q)
      = relu0 (dense (fun k j => x3 (ix2 j k)) (fun j => x4 (ix1 j)) (fun k => val_main_v8 (F := Ideal) x0 x1 x2 (ix2 p k)) q) := by
  have el : ∀ k, lidx_main_v10 (ix2 p q) k = ix2 p k := fun k => funext fun a => Fin.ext (by match a with | ⟨0, _⟩ => rfl | ⟨1, _⟩ => rfl)
  have er : ∀ k, idx_main_v9 (ridx_main_v10 (ix2 p q) k) = ix2 q k := fun k => funext fun a => Fin.ext (by match a with | ⟨0, _⟩ => rfl | ⟨1, _⟩ => rfl)
  have eb : idx_main_v11 (idx_main_v12 (ix2 p q)) = ix1 q := funext fun a => Fin.ext (by match a with | ⟨0, _⟩ => rfl)
  rw [val_main_v14_apply, val_main_call0_v0_apply, val_main_call0_cst_apply, val_main_v13_apply, val_main_v10_apply,
    val_main_v12_apply, val_main_v11_apply, eb]
  unfold relu0 dense
  simp only [Ideal.maximumf_def, Ideal.addf_def, Ideal.ofBits_def]
  refine congrArg (max · _) (congrArg (· + _) (Finset.sum_congr rfl fun k _ => ?_))
  rw [el, val_main_v9_apply, er]

/-- The second hidden layer of row p. -/
theorem hidden1_apply (p : Fin 128) (q : Fin 128) :
    val_main_v20 (F := Ideal) x0 x1 x2 x3 x4 x5 x6 (ix2 p q)
      = relu0 (dense (fun k j => x5 (ix2 j k)) (fun j => x6 (ix1 j)) (fun k => val_main_v14 (F := Ideal) x0 x1 x2 x3 x4 (ix2 p k)) q) := by
  have el : ∀ k, lidx_main_v16 (ix2 p q) k = ix2 p k := fun k => funext fun a => Fin.ext (by match a with | ⟨0, _⟩ => rfl | ⟨1, _⟩ => rfl)
  have er : ∀ k, idx_main_v15 (ridx_main_v16 (ix2 p q) k) = ix2 q k := fun k => funext fun a => Fin.ext (by match a with | ⟨0, _⟩ => rfl | ⟨1, _⟩ => rfl)
  have eb : idx_main_v17 (idx_main_v18 (ix2 p q)) = ix1 q := funext fun a => Fin.ext (by match a with | ⟨0, _⟩ => rfl)
  rw [val_main_v20_apply, val_main_call1_v0_apply, val_main_call1_cst_apply, val_main_v19_apply, val_main_v16_apply,
    val_main_v18_apply, val_main_v17_apply, eb]
  unfold relu0 dense
  simp only [Ideal.maximumf_def, Ideal.addf_def, Ideal.ofBits_def]
  refine congrArg (max · _) (congrArg (· + _) (Finset.sum_congr rfl fun k _ => ?_))
  rw [el, val_main_v15_apply, er]

/-- The third hidden layer of row p. -/
theorem hidden2_apply (p : Fin 128) (q : Fin 64) :
    val_main_v26 (F := Ideal) x0 x1 x2 x3 x4 x5 x6 x7 x8 (ix2 p q)
      = relu0 (dense (fun k j => x7 (ix2 j k)) (fun j => x8 (ix1 j)) (fun k => val_main_v20 (F := Ideal) x0 x1 x2 x3 x4 x5 x6 (ix2 p k)) q) := by
  have el : ∀ k, lidx_main_v22 (ix2 p q) k = ix2 p k := fun k => funext fun a => Fin.ext (by match a with | ⟨0, _⟩ => rfl | ⟨1, _⟩ => rfl)
  have er : ∀ k, idx_main_v21 (ridx_main_v22 (ix2 p q) k) = ix2 q k := fun k => funext fun a => Fin.ext (by match a with | ⟨0, _⟩ => rfl | ⟨1, _⟩ => rfl)
  have eb : idx_main_v23 (idx_main_v24 (ix2 p q)) = ix1 q := funext fun a => Fin.ext (by match a with | ⟨0, _⟩ => rfl)
  rw [val_main_v26_apply, val_main_call2_v0_apply, val_main_call2_cst_apply, val_main_v25_apply, val_main_v22_apply,
    val_main_v24_apply, val_main_v23_apply, eb]
  unfold relu0 dense
  simp only [Ideal.maximumf_def, Ideal.addf_def, Ideal.ofBits_def]
  refine congrArg (max · _) (congrArg (· + _) (Finset.sum_congr rfl fun k _ => ?_))
  rw [el, val_main_v21_apply, er]

/-- The output layer of row p. -/
theorem output_apply (p : Fin 128) (q : Fin 3) :
    val_main_v31 (F := Ideal) x0 x1 x2 x3 x4 x5 x6 x7 x8 x9 x10 (ix2 p q)
      = dense (fun k j => x9 (ix2 j k)) (fun j => x10 (ix1 j)) (fun k => val_main_v26 (F := Ideal) x0 x1 x2 x3 x4 x5 x6 x7 x8 (ix2 p k)) q := by
  have el : ∀ k, lidx_main_v28 (ix2 p q) k = ix2 p k := fun k => funext fun a => Fin.ext (by match a with | ⟨0, _⟩ => rfl | ⟨1, _⟩ => rfl)
  have er : ∀ k, idx_main_v27 (ridx_main_v28 (ix2 p q) k) = ix2 q k := fun k => funext fun a => Fin.ext (by match a with | ⟨0, _⟩ => rfl | ⟨1, _⟩ => rfl)
  have eb : idx_main_v29 (idx_main_v30 (ix2 p q)) = ix1 q := funext fun a => Fin.ext (by match a with | ⟨0, _⟩ => rfl)
  rw [val_main_v31_apply, val_main_v28_apply, val_main_v30_apply, val_main_v29_apply, eb]
  unfold dense
  simp only [Ideal.addf_def]
  refine congrArg (· + _) (Finset.sum_congr rfl fun k _ => ?_)
  rw [el, val_main_v27_apply, er]

/-- THE REFERENCE'S RESULT is `result` of its arguments. -/
theorem ref_is_result :
    val_main_v31 (F := Ideal) x0 x1 x2 x3 x4 x5 x6 x7 x8 x9 x10 = result x0 x1 x2 x3 x4 x5 x6 x7 x8 x9 x10 := by
  funext i
  obtain ⟨p, q, rfl⟩ : ∃ (p : Fin 128) (q : Fin 3), i = ix2 p q := ⟨i 0, i 1, eq_ix2 i⟩
  show _ = resultRow x0 x1 x2 x3 x4 x5 x6 x7 x8 x9 x10 p q
  unfold resultRow head
  rw [output_apply]
  refine congrArg (fun h => dense _ _ h q) (funext fun k2 => ?_)
  rw [hidden2_apply]
  refine congrArg (fun h => relu0 (dense _ _ h k2)) (funext fun k1 => ?_)
  rw [hidden1_apply]
  refine congrArg (fun h => relu0 (dense _ _ h k1)) (funext fun k0 => ?_)
  rw [hidden0_apply]
  refine congrArg (fun h => relu0 (dense _ _ h k0)) (funext fun kf => ?_)
  rw [features_apply]
  refine congrArg (fun h => dense _ _ h kf) (funext fun k => ?_)
  exact mean_apply x0 p k

end Cert.ReferenceIdeal.Stages

end
-- ==== Proof.lean ====
/-
  The kernel: for each of two batch tiles of 64 rows, the column sums of x are accumulated over eight sequence tiles of
  512 positions in a 64 x 64 scratch (reset at the first tile); at the last tile the sums are scaled by 1/4096, cut to
  60 columns, and pushed through five affine layers (relu after the middle three) to a 64 x 3 output block.
  The reference: the mean of x[:, :, :60] over the 4096 positions (a sum divided by 4096), then the same five layers on all
  128 rows at once.

  Over the extended reals the two are one function of the eleven arguments:
    * eight partial sums of 512 terms from zero are the one sum of 4096 terms (regrouping a finite sum: associativity and
      commutativity of addition, which hold at the infinities too);
    * multiplying by the float word for 2^(-12) is dividing by the float word for 2^12 = 4096 (a nonzero real divisor,
      exact at every extended real);
    * cutting to 60 columns commutes with the entrywise scaling;
    * narrowing to bf16 and back is the identity; a matrix product into zeros is the plain sum of products; every layer
      acts row by row, so a 64-row block of the kernel's result is the same rows of the reference's.
  No step uses that the inputs are finite; the precondition is only carried.

  The frames: the two kernel programs' are the generated ones; the reference has no kernel, and its frame is its
  generated run with the result dropped. The idealization rewrote nothing, so `preserves` is `True`.
-/
import proofs.«129909_j75376676045074_2_alg».proof.Defs
import proofs.«129909_j75376676045074_2_alg».proof.Proof.Gen.Kernel
import proofs.«129909_j75376676045074_2_alg».proof.Proof.Gen.Kernel.Skeleton
import proofs.«129909_j75376676045074_2_alg».proof.Proof.Gen.Kernel.Launch
import proofs.«129909_j75376676045074_2_alg».proof.Proof.Gen.Kernel.Points
import proofs.«129909_j75376676045074_2_alg».proof.Proof.Gen.Kernel.Frame
import proofs.«129909_j75376676045074_2_alg».proof.Proof.Gen.KernelIdeal
import proofs.«129909_j75376676045074_2_alg».proof.Proof.Gen.KernelIdeal.Skeleton
import proofs.«129909_j75376676045074_2_alg».proof.Proof.Gen.KernelIdeal.Launch
import proofs.«129909_j75376676045074_2_alg».proof.Proof.Gen.KernelIdeal.Points
import proofs.«129909_j75376676045074_2_alg».proof.Proof.Gen.KernelIdeal.Frame
import proofs.«129909_j75376676045074_2_alg».proof.Proof.Gen.ReferenceIdeal
import proofs.«129909_j75376676045074_2_alg».proof.Proof.Gen.Pre_finite_inputs
import proofs.«129909_j75376676045074_2_alg».proof.Proof.Gen.KernelIdeal.Value
import proofs.«129909_j75376676045074_2_alg».proof.Proof.Gen.ReferenceIdeal.Run
import proofs.«129909_j75376676045074_2_alg».proof.Proof.Gen.ReferenceIdeal.Read
import proofs.«129909_j75376676045074_2_alg».proof.Proof.Whole
import proofs.«129909_j75376676045074_2_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the one function `result` of the argument arrays: the kernel's run posts
    it block by block, the reference's stage by stage; the memories agree on the arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Stages.ref_is_result]
  obtain ⟨a0, a1, a2, a3, a4, a5, a6, a7, a8, a9, a10⟩ := hagree c
  rw [a0, a1, a2, a3, a4, a5, a6, a7, a8, a9, a10]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
